-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S1024x256 : Shape := ⟨2, ![1024, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S1024x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S1024x256 : Shape := ⟨2, ![1024, 256]⟩
abbrev S256 : Shape := ⟨1, ![256]⟩
abbrev S4x256x256 : Shape := ⟨3, ![4, 256, 256]⟩
abbrev S1x256 : Shape := ⟨2, ![1, 256]⟩
abbrev S400x10000 : Shape := ⟨2, ![400, 10000]⟩
abbrev S400x256 : Shape := ⟨2, ![400, 256]⟩
abbrev S1x256x256 : Shape := ⟨3, ![1, 256, 256]⟩
abbrev S256x256 : Shape := ⟨2, ![256, 256]⟩

abbrev nBuf : Space → Nat
  | .hbm => 11
  | .vmem => 17
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S1024x256, .f32⟩
  | .hbm, ⟨3, _⟩ => ⟨S256, .f32⟩
  | .hbm, ⟨4, _⟩ => ⟨S10000x256, .bf16⟩
  | .hbm, ⟨5, _⟩ => ⟨S4x256x256, .f32⟩
  | .hbm, ⟨6, _⟩ => ⟨S4x256x256, .bf16⟩
  | .hbm, ⟨7, _⟩ => ⟨S1x256, .f32⟩
  | .hbm, ⟨8, _⟩ => ⟨S10000x256, .bf16⟩
  | .hbm, ⟨9, _⟩ => ⟨S10000x10000, .bf16⟩
  | .hbm, ⟨10, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S4x256x256, .bf16⟩
  | .local _ .vmem, ⟨4, _⟩ => ⟨S400x256, .bf16⟩
  | .local _ .vmem, ⟨5, _⟩ => ⟨S400x256, .bf16⟩
  | .local _ .vmem, ⟨6, _⟩ => ⟨S400x10000, .bf16⟩
  | .local _ .vmem, ⟨7, _⟩ => ⟨S400x10000, .bf16⟩
  | .local _ .vmem, ⟨8, _⟩ => ⟨S400x10000, .bf16⟩
  | .local _ .vmem, ⟨9, _⟩ => ⟨S400x10000, .bf16⟩
  | .local _ .vmem, ⟨10, _⟩ => ⟨S10000x256, .bf16⟩
  | .local _ .vmem, ⟨11, _⟩ => ⟨S10000x256, .bf16⟩
  | .local _ .vmem, ⟨12, _⟩ => ⟨S4x256x256, .bf16⟩
  | .local _ .vmem, ⟨13, _⟩ => ⟨S1x256, .f32⟩
  | .local _ .vmem, ⟨14, _⟩ => ⟨S400x256, .f32⟩
  | .local _ .vmem, ⟨15, _⟩ => ⟨S400x256, .f32⟩
  | .local _ .vmem, ⟨16, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 25], ![false, false]⟩

def k1_off1 (i : grid1.Coords) : Fin 2 → Nat :=
  let arg1 : BitVec 32 := BitVec.ofNat 32 (i 1).val
  let c400_i32 : BitVec 32 := 400#32
  let v0 : BitVec 32 := Scalar.muli arg1 c400_i32
  let v1 : Index := Scalar.indexCast v0
  let c0 : Index := 0#32
  ![v1.toNat, 0]
def k1_cond1 (i : grid1.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k1_off2 (i : grid1.Coords) : Fin 2 → Nat :=
  let arg1 : BitVec 32 := BitVec.ofNat 32 (i 1).val
  let c400_i32_9 : BitVec 32 := 400#32
  let v20 : BitVec 32 := Scalar.muli arg1 c400_i32_9
  let v21 : Index := Scalar.indexCast v20
  let c0_10 : Index := 0#32
  ![v21.toNat, 0]
def k1_cond2 (i : grid1.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_1 : BitVec 32 := 0#32
  let v9 : BitVec 1 := Scalar.cmpi .ne v8 c0_i32_1
  v9

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S10000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4x256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  shapeCasts_S1024x256_S4x256x256 : S1024x256.ShapeCasts S4x256x256
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  h_S400x256 : 0 < S400x256.numel
  shapeCasts_S400x256_S400x256 : S400x256.ShapeCasts S400x256
  inb_S4x256x256_S1x256x256_3_0_0 : ∀ a, (![3, 0, 0] : Fin 3 → Nat) a + S1x256x256.size a ≤ S4x256x256.size a
  h_S1x256x256 : 0 < S1x256x256.numel
  shapeCasts_S1x256x256_S256x256 : S1x256x256.ShapeCasts S256x256
  inb_S4x256x256_S1x256x256_2_0_0 : ∀ a, (![2, 0, 0] : Fin 3 → Nat) a + S1x256x256.size a ≤ S4x256x256.size a
  inb_S400x256_S400x256_0_0 : ∀ a, (![0, 0] : Fin 2 → Nat) a + S400x256.size a ≤ S400x256.size a
  packedbf16_S400x256_S400x256_0_0 : (Rect.unit (s := S400x256) ![0, 0] S400x256.size inb_S400x256_S400x256_0_0).PackedRows (EltTy.packing .bf16)
  shapeCasts_S400x10000_S400x10000 : S400x10000.ShapeCasts S400x10000
  inb_S4x256x256_S1x256x256_1_0_0 : ∀ a, (![1, 0, 0] : Fin 3 → Nat) a + S1x256x256.size a ≤ S4x256x256.size a
  inb_S4x256x256_S1x256x256_0_0_0 : ∀ a, (![0, 0, 0] : Fin 3 → Nat) a + S1x256x256.size a ≤ S4x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S4x256x256.size a
  hwx0_2 : ∀ i : grid0.Coords, EltTy.bits .bf16 = 32 ∨ (Rect.block (s := S4x256x256) S4x256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .bf16 = 32 ∨ (Rect.block (s := S10000x256) S400x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .bf16 = 32 ∨ (Rect.block (s := S10000x10000) S400x10000.size (cc0_transform_4 i) (hinb0_4 i)).WholeWords (EltTy.packing .bf16)
  hrank1 : 0 < grid1.rank
  k1_off1_inb : ∀ i : grid1.Coords, ∀ a, (k1_off1 i) a + S400x256.size a ≤ S10000x256.size a
  k1_off2_inb : ∀ i : grid1.Coords, ∀ (k1_h1 : k1_cond1 i = 1#1), ∀ a, (k1_off2 i) a + S400x256.size a ≤ S10000x256.size a
  k1_off2_packedbf16 : ∀ i : grid1.Coords, ∀ (k1_h1 : k1_cond1 i = 1#1), (Rect.unit (s := S10000x256) (k1_off2 i) S400x256.size (k1_off2_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .bf16 = 32 ∨ (Rect.block (s := S10000x256) S10000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x256x256.size a ≤ S4x256x256.size a
  hwx1_3 : ∀ i : grid1.Coords, EltTy.bits .bf16 = 32 ∨ (Rect.block (s := S4x256x256) S4x256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x256.size a ≤ S10000x256.size a
  hwx1_5 : ∀ i : grid1.Coords, EltTy.bits .f32 = 32 ∨ (Rect.block (s := S10000x256) S400x256.size (cc1_transform_5 i) (hinb1_5 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S400x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S400x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S10000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S1024x256 : Shape := ⟨2, ![1024, 256]⟩
abbrev S256 : Shape := ⟨1, ![256]⟩
abbrev S10000x1024 : Shape := ⟨2, ![10000, 1024]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S1024x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S10000x256, .f32⟩
  | .hbm, ⟨7, _⟩ => ⟨S10000x1024, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  concatenates_S10000x256_S10000x256_S10000x256_S10000x256_S10000x1024_d1 : Shape.Concatenates [S10000x256, S10000x256, S10000x256, S10000x256] S10000x1024 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x10000_S10000x256_S10000x256_1_0_0_1_n_n_wf : DotDims.WF S10000x10000 S10000x256 S10000x256 [1] [0] [0] [1] [] []
  dot_S10000x1024_S1024x256_S10000x256_1_0_0_1_n_n_wf : DotDims.WF S10000x1024 S1024x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.Region0.lean ====
/-
  The first sweep's pipeline, one grid point per panel of 400 rows (25 points), at any float instance.

  At point i the body is handed five staging buffers: the panel of rows [400·i, 400·i + 400) of the
  adjacency matrix (f32), the whole feature matrix X (bf16), the whole weight tensor (bf16, four
  256 × 256 slabs), and two output buffers.  It leaves in the second output the panel narrowed to bf16,
  and in the first output the panel of the first hop,

      narrow( narrow(panel · X) · W₃ + X[400·i …, :] · W₂ ),

  a function of the three input blocks and of the point (through the rows of X it reads).

  This module states what each window's buffer holds after the body as a function of the input blocks
  (`out0_3`, `out0_4`), the proof data of the pipeline over the arrays as the region finds them, that
  each input buffer holds its block at every point whether or not it was fetched there (an input
  fetched only at the first point keeps its block: its block index never moves), the body's triple,
  and the body obligation of the pipeline rule.
-/
import proofs.«118664_g34883724378360_cont_8to1_b_1789_21_alg».proof.Proof.Gen.KernelIdeal.Launch
import proofs.«118664_g34883724378360_cont_8to1_b_1789_21_alg».proof.Proof.Gen.KernelIdeal.Skeleton
import proofs.«118664_g34883724378360_cont_8to1_b_1789_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is the region's (`hA`) and whose body leaves the block in place (`hafter`):
    where it is not fetched its block index has not moved.  Window 0: the adjacency panel. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the feature matrix, whole, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the weight tensor, whole, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole adjacency panel (and the whole of the bf16 panel the body writes). -/
abbrev rA0 : Rect S400x10000 := Rect.unit (s := S400x10000) ![0, 0] S400x10000.size inb_S400x10000_S400x10000_0_0
/-- The whole feature matrix. -/
abbrev rX0 : Rect S10000x256 := Rect.unit (s := S10000x256) ![0, 0] S10000x256.size inb_S10000x256_S10000x256_0_0
/-- Rows [400·i, 400·i + 400) of the feature matrix, at grid point `i`. -/
abbrev rXrow0 (i : grid0.Coords) : Rect S10000x256 := Rect.unit (s := S10000x256) (k0_off1 i) S400x256.size (k0_off1_inb i)
/-- The weight slabs 3 and 2. -/
abbrev rW0_3 : Rect S4x256x256 := Rect.unit (s := S4x256x256) ![3, 0, 0] S1x256x256.size inb_S4x256x256_S1x256x256_3_0_0
abbrev rW0_2 : Rect S4x256x256 := Rect.unit (s := S4x256x256) ![2, 0, 0] S1x256x256.size inb_S4x256x256_S1x256x256_2_0_0
/-- The whole first-hop panel. -/
abbrev rU0 : Rect S400x256 := Rect.unit (s := S400x256) ![0, 0] S400x256.size inb_S400x256_S400x256_0_0

/-! ## What the body leaves in each output window's buffer -/

/-- Window 4's buffer after the body, from the adjacency panel: the panel narrowed to bf16, its one store
    (which covers the buffer) as a list of pieces. -/
def out0_4 (x0 : Vec F S400x10000 .f32) : Vec F S400x10000 .bf16 :=
  View.canon [⟨rA0, k0_pay1 (View.ld x0 rA0)⟩]

/-- Window 3's buffer after the body at grid point `i`, from the three input blocks: the first-hop panel,
    narrow(narrow(panel · X) · W₃ + X[400·i …, :] · W₂), its one store as a list of pieces. -/
def out0_3 (i : grid0.Coords) (x0 : Vec F S400x10000 .f32) (x1 : Vec F S10000x256 .bf16) (x2 : Vec F S4x256x256 .bf16) : Vec F S400x256 .bf16 :=
  View.canon [⟨rU0, k0_pay2 (View.ld x0 rA0) (View.ld x1 rX0) (View.ld x1 (rXrow0 i)) (View.ld x2 rW0_3) (View.ld x2 rW0_2)⟩]

/-- The one store of window 4 covers its buffer. -/
theorem cover0_4 (p0 : Vec F S400x10000 .bf16) (y : S400x10000.Idx) :
    ∃ pc ∈ ([⟨rA0, p0⟩] : List (View.Piece (Elt F) S400x10000 .bf16)), y ∈ pc.1.set :=
  View.cover_of_tiled [⟨rA0, p0⟩] S400x10000.size (by rfl) y

/-- The one store of window 3 covers its buffer. -/
theorem cover0_3 (p0 : Vec F S400x256 .bf16) (y : S400x256.Idx) :
    ∃ pc ∈ ([⟨rU0, p0⟩] : List (View.Piece (Elt F) S400x256 .bf16)), y ∈ pc.1.set :=
  View.cover_of_tiled [⟨rU0, p0⟩] S400x256.size (by rfl) y

/-! ## The pipeline's proof data -/

/-- The proof data of the first sweep on core `c`: the arrays as the region finds them; after the body at point
    `t` each input's buffer at its block, the first-hop output at `out0_3` of the three input blocks at the
    point's coordinates, the bf16 panel at `out0_4` of the adjacency panel; the invariant the rest of the
    core's memory, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The body on whole staging memrefs, the three inputs' at read contents and the two outputs' at anything, runs to
    the continuation holding the inputs' as they were, the first-hop output's at `out0_3` of the inputs and the bf16
    panel's at `out0_4` of the adjacency panel. -/
theorem sound_kernel0 (c : Dev nD) (E : Set ℕ) (i : grid0.Coords)
    (arg1 : Memref sig .tc .vmem S400x10000 .f32) (harg1 : arg1.IsWhole)
    (arg2 : Memref sig .tc .vmem S10000x256 .bf16) (harg2 : arg2.IsWhole)
    (arg3 : Memref sig .tc .vmem S4x256x256 .bf16) (harg3 : arg3.IsWhole)
    (arg4 : Memref sig .tc .vmem S400x256 .bf16) (harg4 : arg4.IsWhole)
    (arg5 : Memref sig .tc .vmem S400x10000 .bf16) (harg5 : arg5.IsWhole)
    (x0 : Vec F S400x10000 .f32) (x1 : Vec F S10000x256 .bf16) (x2 : Vec F S4x256x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 i x0 x1 x2) ∗ owns (c : Thread nD τ) arg5 fullShare (out0_4 x0)) -∗ K ⟨⟩))
      ⊢ wp frame (wpE (defs₀ (F := F)) Variants.none c none) E (cc0__sweep1_body i arg1 harg1 arg2 harg2 arg3 harg3 arg4 harg4 arg5 harg5) K := by
  simp only [cc0__sweep1_body_eq_skeleton]; unfold cc0__sweep1_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_4 _)

/-! ## The body obligation, at a generic point -/

/-- What the body is called with at point `t`: the invariant, the core's dues, and each window's current buffer,
    the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three inputs' buffers hold their blocks, so the body's triple applies at the point's
    coordinates; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The second sweep's kernel body, run once for each of the two cases its grid meets.

  In the first phase (grid coordinate 0 equal to 0) the body stores, into rows [400·i, 400·i + 400) of the
  scratch it keeps between grid points, the block  A_i · U₁ + X_i · W₁  and leaves the output window alone;
  in the second phase (coordinate 0 equal to 1) it reads the whole scratch and stores  A_i · scratch + X_i · W₀ + b
  into the output window, leaving the scratch alone.  Each run hands back every input buffer as it was and
  names what it stored as a list of pieces.
-/
import proofs.«118664_g34883724378360_cont_8to1_b_1789_21_alg».proof.Proof.Gen.KernelIdeal.Launch
import proofs.«118664_g34883724378360_cont_8to1_b_1789_21_alg».proof.Proof.Gen.KernelIdeal.Skeleton
import proofs.«118664_g34883724378360_cont_8to1_b_1789_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first phase: grid coordinate 0 is 0. -/
abbrev cond1_0 (i : grid1.Coords) : Prop := k1_cond1 i = 1#1
/-- The second phase: grid coordinate 0 is 1. -/
abbrev cond1_1 (i : grid1.Coords) : Prop := k1_cond2 i = 1#1

/-- The grid is walked phase by phase: the first 25 points are the first phase. -/
theorem hcond1_0 : ∀ t : Fin cfg1.N, cond1_0 (grid1.coords t) ↔ t.val < 25 :=
  (by decide +kernel : ∀ t : Fin grid1.N, cond1_0 (grid1.coords t) ↔ t.val < 25)
/-- The last 25 points are the second phase. -/
theorem hcond1_1 : ∀ t : Fin cfg1.N, cond1_1 (grid1.coords t) ↔ 25 ≤ t.val :=
  (by decide +kernel : ∀ t : Fin grid1.N, cond1_1 (grid1.coords t) ↔ 25 ≤ t.val)

/-! ## The body in the first phase -/

set_option maxHeartbeats 4000000 in
/-- First phase: the inputs come back as they were, the output window's buffer untouched, and the scratch with the
    pieces `LS` written over what it held. -/
noncomputable def kernelRun1_A (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : cond1_0 i) (hc1 : ¬cond1_1 i)
    (x0 : Vec F S400x10000 .bf16) (x1 : Vec F S10000x256 .bf16) (x2 : Vec F S10000x256 .bf16) (x3 : Vec F S4x256x256 .bf16) (x4 : Vec F S1x256 .f32) :
    { LS : List (View.Piece (Elt F) S10000x256 .bf16) //
      ∀ (x5 : Vec F S400x256 .f32) (xs : Vec F S10000x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread xs) LS)) -∗ K ⟨⟩))
          ⊢ wp frame (wpE (defs₀ (F := F)) Variants.none c none) E (cc1__sweep23_body i arg2 harg2 arg3 harg3 arg4 harg4 arg5 harg5 arg6 harg6 arg7 harg7 arg8 harg8) K } := by
  refine ⟨?_, fun x5 xs E K => ?run⟩
  case run =>
    simp only [cc1__sweep23_body_eq_skeleton]; unfold cc1__sweep23_body_skel
    unfold owns
    iintro ⟨⟨%f0, %hf0, H_arg2⟩, ⟨%f1, %hf1, H_arg3⟩, ⟨%f2, %hf2, H_arg4⟩, ⟨%f3, %hf3, H_arg5⟩, ⟨%f4, %hf4, H_arg6⟩, ⟨%f5, %hf5, H_arg7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    isplitl [H_arg7]
    · iexists _; isplitr; · ipureintro; exact harg7.read_unread _
      iexact H_arg7
    iexact HS

/-! ## The body in the second phase -/

set_option maxHeartbeats 4000000 in
/-- Second phase: the inputs and the scratch come back as they were, and the output window's buffer with the pieces
    `L5` written (over whatever it held). -/
noncomputable def kernelRun1_B (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : ¬cond1_0 i) (hc1 : cond1_1 i)
    (x0 : Vec F S400x10000 .bf16) (x1 : Vec F S10000x256 .bf16) (x2 : Vec F S10000x256 .bf16) (x3 : Vec F S4x256x256 .bf16) (x4 : Vec F S1x256 .f32) (xs : Vec F S10000x256 .bf16) :
    { L5 : List (View.Piece (Elt F) S400x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc1__sweep23_body i arg2 harg2 arg3 harg3 arg4 harg4 arg5 harg5 arg6 harg6 arg7 harg7 arg8 harg8) K } := by
  refine ⟨?_, fun E K => ?run⟩
  case run =>
    simp only [cc1__sweep23_body_eq_skeleton]; unfold cc1__sweep23_body_skel
    unfold owns
    iintro ⟨⟨%f0, %hf0, H_arg2⟩, ⟨%f1, %hf1, H_arg3⟩, ⟨%f2, %hf2, H_arg4⟩, ⟨%f3, %hf3, H_arg5⟩, ⟨%f4, %hf4, H_arg6⟩, ⟨%d5, %f5, -, H_arg7⟩, ⟨%fs, %hfs, H_arg8⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    isplitl [H_arg7]; · iexists _; iexact H_arg7
    iexists _; isplitr; · ipureintro; exact harg8.read_unread _
    iexact H_arg8

end Cert.KernelIdeal.Hand

end
-- ==== Proof.Region1.lean ====
/-
  The second sweep's pipeline: 50 grid points walked phase by phase, the first 25 the first phase (point t is
  panel t), the last 25 the second (point t is panel t − 25), at any float instance.

  The body keeps a scratch of the shape of the feature matrix between grid points.  In the first phase point
  t stores rows [400·t, 400·t + 400) of the second hop,

      narrow( A_t · U₁ + X_t · W₁ ),

  into the scratch and leaves the output window alone; in the second phase point t reads the whole scratch,
  by then the whole second hop, and stores  (A_i · hop₂ + X_i · W₀) + b  for panel i = t − 25 into the output
  window, leaving the scratch alone.

  What the scratch holds is stated by a predicate rather than by a closed term: before point t its rows below
  400 · min t 25 are the second hop's (`ScrInv`).  The first phase extends the predicate by one panel; after 25
  points it says the scratch IS the second hop, which is what the second phase's stored value is stated over.

  This module states the windows' blocks, the second hop as a function of the input blocks (`hop2fun`), what the
  output window holds after the body in the second phase (`out1_5`), the pipeline's proof data with that
  invariant, the invariant's entry and exit, and the body obligation of the pipeline rule.
-/
import proofs.«118664_g34883724378360_cont_8to1_b_1789_21_alg».proof.Proof.Region1Runs
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the region's (`hA`) and whose body leaves the block in place (`hafter`): where it is not
    fetched its block index has not moved.  Window 0: the bf16 adjacency panel, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1: the first hop, whole, fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2: the feature matrix, whole, fetched at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3: the weight tensor, whole, fetched at the first point only. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4: the bias row, whole, fetched at the first point only. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers and the scratch, as the pipeline passes them to the body -/

abbrev ms1_0 (t : Fin cfg1.N) : Memref sig .tc .vmem S400x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S400x256 .f32 := win1_5.stage (cfg1.slots t 5)
abbrev hs1_5 (t : Fin cfg1.N) : (ms1_5 t).IsWhole := hstage1_5 ((cfg1.slots t 5).cast nbuf1_5)
/-- The scratch the body keeps between grid points: a whole buffer of the kernel's own. -/
abbrev scM1 : Memref sig .tc .vmem S10000x256 .bf16 := Memref.whole cc1_scratch0

/-! ## The body's accesses -/

/-- The whole bf16 adjacency panel. -/
abbrev rA1 : Rect S400x10000 := Rect.unit (s := S400x10000) ![0, 0] S400x10000.size inb_S400x10000_S400x10000_0_0
/-- A whole 10000 × 256 matrix (the first hop; the scratch). -/
abbrev rM1 : Rect S10000x256 := Rect.unit (s := S10000x256) ![0, 0] S10000x256.size inb_S10000x256_S10000x256_0_0
/-- The panel's rows of the feature matrix, at grid point `i`. -/
abbrev rXrow1 (i : grid1.Coords) : Rect S10000x256 := Rect.unit (s := S10000x256) (k1_off1 i) S400x256.size (k1_off1_inb i)
/-- The weight slabs 1 and 0. -/
abbrev rW1_1 : Rect S4x256x256 := Rect.unit (s := S4x256x256) ![1, 0, 0] S1x256x256.size inb_S4x256x256_S1x256x256_1_0_0
abbrev rW1_0 : Rect S4x256x256 := Rect.unit (s := S4x256x256) ![0, 0, 0] S1x256x256.size inb_S4x256x256_S1x256x256_0_0_0
/-- The whole bias row. -/
abbrev rB1 : Rect S1x256 := Rect.unit (s := S1x256) ![0, 0] S1x256.size inb_S1x256_S1x256_0_0
/-- The whole output panel. -/
abbrev rO1 : Rect S400x256 := Rect.unit (s := S400x256) ![0, 0] S400x256.size inb_S400x256_S400x256_0_0

/-! ## The second hop, panel by panel -/

/-- What the first phase stores at point `t`: the panel  narrow(A_t · U₁ + X_t · W₁)  of the second hop, from the
    input blocks at the point. -/
def payA (c : Dev nD) (t : Fin cfg1.N) : Vec F S400x256 .bf16 :=
  k1_pay2 (View.ld (iblk1 V c 2 t) (rXrow1 (grid1.coords t))) (View.ld (iblk1 V c 0 t) rA1)
    (View.ld (iblk1 V c 1 t) rM1) (View.ld (iblk1 V c 3 t) rW1_1)

/-- Row r of the 10000-row matrix lies in panel r / 400, one of the first phase's 25. -/
theorem panel_lt (y : S10000x256.Idx) : (y 0).val / 400 < cfg1.N := by
  have h := ValueIdx.idx2_lt0 y
  have hN : cfg1.N = 50 := N_1
  rw [hN]; omega

/-- Row r is row r % 400 of its panel; the column is the column. -/
def localIdx (y : S10000x256.Idx) : S400x256.Idx :=
  ValueIdx.ix2 (⟨(y 0).val % 400, Nat.mod_lt _ (by decide)⟩ : Fin 400) (⟨(y 1).val, ValueIdx.idx2_lt1 y⟩ : Fin 256)

/-- The whole second hop: row r is row r % 400 of what the first phase stores at point r / 400. -/
def hop2fun (c : Dev nD) : Vec F S10000x256 .bf16 := fun y =>
  payA V c ⟨(y 0).val / 400, panel_lt y⟩ (localIdx y)

/-- What is known of the scratch before point `n` of the first phase: its first `n` panels are the second hop's. -/
def ScrInv (c : Dev nD) (n : ℕ) (f : Vec F S10000x256 .bf16) : Prop :=
  ∀ y : S10000x256.Idx, (y 0).val < 400 * n → f y = hop2fun V c y

/-! ## What the body leaves in the output window's buffer, in the second phase -/

/-- Window 5's buffer after the body at a point `t` of the second phase, from the input blocks and the second
    hop: the panel  (A_i · hop₂ + X_i · W₀) + b, its one store as a list of pieces. -/
def out1_5 (c : Dev nD) (t : Fin cfg1.N) : Vec F S400x256 .f32 :=
  View.canon [⟨rO1, k1_pay3 (View.ld (iblk1 V c 2 t) (rXrow1 (grid1.coords t))) (View.ld (iblk1 V c 0 t) rA1)
    (View.ld (hop2fun V c) rM1) (View.ld (iblk1 V c 3 t) rW1_0) (View.ld (iblk1 V c 4 t) rB1)⟩]

/-- The one store of window 5 covers its buffer. -/
theorem cover1_5 (p0 : Vec F S400x256 .f32) (y : S400x256.Idx) :
    ∃ pc ∈ ([⟨rO1, p0⟩] : List (View.Piece (Elt F) S400x256 .f32)), y ∈ pc.1.set :=
  View.cover_of_tiled [⟨rO1, p0⟩] S400x256.size (by rfl) y

/-! ## The pipeline's proof data -/

/-- The invariant before point `n`: the other pipeline's staging buffers, each at some contents; the scratch at
    contents whose first `min n 25` panels are the second hop's; the random-number register at some state. -/
def Phi1 (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Vec F S10000x256 .bf16, owns (c : Thread nD τ) scM1 fullShare f ∗ ⌜ScrInv V c (min n 25) f⌝))
    ∗ ∃ r, prngReg c r)

/-- The proof data of the second sweep on core `c`: the arrays as the region finds them; after the body at point
    `t` each input's buffer at its block and the output's at `out1_5`; the invariant `Phi1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

/-- The invariant at the proof data's points. -/
theorem Phi1_at (c : Dev nD) (t : Fin (cfg1.N + 1)) : (dat1 V c).Φ t = Phi1 V c t.val := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the windows are idle, and where the first phase stores -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- In the first phase the body stores nothing into the output window, -/
theorem idleAt1_5_A : ∀ t : Fin cfg1.N, t.val < 25 → cfg1.idle 5 (grid1.coords t) = true :=
  (by decide +kernel : ∀ t : Fin grid1.N, t.val < 25 → idle1 5 (grid1.coords t) = true)
/-- and the pipeline does not write its block back. -/
theorem noFlush1_5_A : ∀ t : Fin cfg1.N, t.val < 25 → (cfg1.win 5).flush t = false :=
  (by decide +kernel : ∀ t : Fin grid1.N, t.val < 25 → win1_5.flush t = false)
/-- In the second phase the body stores into it. -/
theorem liveAt1_5_B : ∀ t : Fin cfg1.N, 25 ≤ t.val → cfg1.idle 5 (grid1.coords t) = false :=
  (by decide +kernel : ∀ t : Fin grid1.N, 25 ≤ t.val → idle1 5 (grid1.coords t) = false)
/-- At point `t` of the first phase the store into the scratch starts at row 400·t, column 0. -/
theorem off2_at : ∀ t : Fin cfg1.N, t.val < 25 → k1_off2 (grid1.coords t) = ![400 * t.val, 0] :=
  (by decide +kernel : ∀ t : Fin grid1.N, t.val < 25 → k1_off2 (grid1.coords t) = ![400 * t.val, 0])

/-! ## The invariant's entry and exit -/

/-- Entering the region: the scratch is a whole buffer at some contents, of which nothing is claimed yet. -/
theorem hin1 (c : Dev nD) : (Pipeline.ΦA spec1 c : sProp 𝕄) ⊢ (dat1 V c).Φ 0 := by
  rw [Phi1_at]
  unfold Pipeline.ΦA Phi1
  rw [scopedRest1_eq]
  simp only [scM1, owns_whole]
  iintro ⟨⟨A1, A2, A3, A4, A5, A6, A7, A8, ⟨%f, HS⟩⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexists f
  isplitl [HS]
  · iexact HS
  · ipureintro
    intro y hy
    exfalso
    rw [Fin.val_zero, Nat.zero_min, Nat.mul_zero] at hy
    exact Nat.not_lt_zero _ hy

/-- Leaving the region: what is known of the scratch is forgotten. -/
theorem hout1 (c : Dev nD) : (dat1 V c).Φ (Fin.last cfg1.N) ⊢ (Pipeline.ΦA spec1 c : sProp 𝕄) := by
  rw [Phi1_at]
  unfold Pipeline.ΦA Phi1
  rw [scopedRest1_eq]
  simp only [scM1, owns_whole]
  iintro ⟨⟨A1, A2, A3, A4, A5, A6, A7, A8, ⟨%f, HS, -⟩⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexists f
  iexact HS

/-! ## What each phase's run stores, over the blocks read -/

/-- The first phase stores one piece: rows [400·i₁, 400·i₁ + 400) of the scratch, the second hop's panel. -/
theorem piecesA_eq (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : cond1_0 i) (hc1 : ¬cond1_1 i) (x0 : Vec F S400x10000 .bf16) (x1 : Vec F S10000x256 .bf16) (x2 : Vec F S10000x256 .bf16) (x3 : Vec F S4x256x256 .bf16) (x4 : Vec F S1x256 .f32) :
    (kernelRun1_A c i arg2 harg2 arg3 harg3 arg4 harg4 arg5 harg5 arg6 harg6 arg7 harg7 arg8 harg8 hc0 hc1 x0 x1 x2 x3 x4).1
      = [⟨Rect.unit (s := S10000x256) (k1_off2 i) S400x256.size (k1_off2_inb i hc0),
          k1_pay2 (View.ld x2 (rXrow1 i)) (View.ld x0 rA1) (View.ld x1 rM1) (View.ld x3 rW1_1)⟩] := by
  unfold kernelRun1_A
  dsimp only
  simp only [View.readAt_eq_ld, harg2.read_unread, harg3.read_unread, harg4.read_unread, harg5.read_unread]

/-- The second phase stores one piece: the whole output panel, over the whole scratch as read. -/
theorem piecesB_eq (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : ¬cond1_0 i) (hc1 : cond1_1 i) (x0 : Vec F S400x10000 .bf16) (x1 : Vec F S10000x256 .bf16) (x2 : Vec F S10000x256 .bf16) (x3 : Vec F S4x256x256 .bf16) (x4 : Vec F S1x256 .f32) (xs : Vec F S10000x256 .bf16) :
    (kernelRun1_B c i arg2 harg2 arg3 harg3 arg4 harg4 arg5 harg5 arg6 harg6 arg7 harg7 arg8 harg8 hc0 hc1 x0 x1 x2 x3 x4 xs).1
      = [⟨rO1, k1_pay3 (View.ld x2 (rXrow1 i)) (View.ld x0 rA1) (View.ld xs rM1) (View.ld x3 rW1_0) (View.ld x4 rB1)⟩] := by
  unfold kernelRun1_B
  dsimp only
  simp only [View.readAt_eq_ld, harg2.read_unread, harg4.read_unread, harg5.read_unread, harg6.read_unread, harg8.read_unread]

/-! ## The scratch, one panel further -/

/-- After the first phase's store at point `t` the scratch's first `t + 1` panels are the second hop's: a row of
    panel `t` reads the stored panel at its local position, which is the second hop there since the row's panel
    number is `t`; a row of an earlier panel reads what the scratch held, of which the same was known. -/
theorem scrInv_step (c : Dev nD) (t : Fin cfg1.N) (h : t.val < 25) (f : Vec F S10000x256 .bf16) (hf : ScrInv V c t.val f)
    (inb : ∀ a : Fin 2, (k1_off2 (grid1.coords t)) a + S400x256.size a ≤ S10000x256.size a) :
    ScrInv V c (t.val + 1) (scM1.view.read (Elt F) (scM1.view.writes (Elt F) ((Memref.isWhole_whole cc1_scratch0).unread f)
      [⟨Rect.unit (s := S10000x256) (k1_off2 (grid1.coords t)) S400x256.size inb, payA V c t⟩])) := by
  intro y hy
  have hy0 := ValueIdx.idx2_lt0 y
  by_cases hlo : 400 * t.val ≤ (y 0).val
  · have hx0 : (y (0 : Fin 2)).val = 400 * t.val + ((localIdx y) (0 : Fin 2)).val := by
      show (y 0).val = 400 * t.val + (y 0).val % 400
      omega
    have hx1 : (y (1 : Fin 2)).val = ((localIdx y) (1 : Fin 2)).val := rfl
    refine (View.read_writes_cons_rows_of_mem scM1.view _ inb (payA V c t) [] y (localIdx y) (off2_at t h) hx0 hx1).trans ?_
    have ht : (⟨(y 0).val / 400, panel_lt y⟩ : Fin cfg1.N) = t := Fin.ext (by show (y 0).val / 400 = t.val; omega)
    unfold hop2fun
    rw [ht]
  · refine (View.read_writes_cons_rows_of_not_mem scM1.view _ inb (payA V c t) [] y (off2_at t h) rfl (Or.inl (by omega))).trans ?_
    rw [View.writes_nil, Memref.IsWhole.read_unread]
    exact hf y (by omega)

/-- Once all 25 panels are stored the scratch is the second hop. -/
theorem scrInv_full (c : Dev nD) (f : Vec F S10000x256 .bf16) (hf : ScrInv V c 25 f) : f = hop2fun V c :=
  funext fun y => hf y (by have := ValueIdx.idx2_lt0 y; omega)

/-! ## The body obligation, at a generic point -/

/-- What the body is called with at point `t`: the invariant, the core's dues, and each window's current buffer,
    the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns: each window's buffer at what the body leaves there, an idle output's as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 3200000 in
/-- The body at any point.  The five inputs' buffers hold their blocks.  In the first phase (t < 25) the output window
    is idle and handed back as found; the scratch comes back with panel t stored over contents whose first t panels
    were the second hop's, so its first t + 1 are.  In the second phase (25 ≤ t) the scratch is the second hop and
    comes back unchanged; the output window's one store covers it, so it holds `out1_5`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_at, Phi1_at, Fin.val_succ, Fin.coe_castSucc]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  unfold Phi1
  by_cases h : t.val < 25
  · rw [Dat.leavesExact_idle (dat1 V c) 5 t (idleAt1_5_A t h) (noFlush1_5_A t h)]
    rw [show min t.val 25 = t.val from Nat.min_eq_left (Nat.le_of_lt h), show min (t.val + 1) 25 = t.val + 1 from Nat.min_eq_left h]
    iintro ⟨⟨⟨A1, A2, A3, A4, A5, A6, A7, A8, ⟨%f, HS, %hf⟩⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      ((hcond1_0 t).mpr h) (fun h' => by have := (hcond1_1 t).mp h'; omega) (iblk1 V c 0 t) (iblk1 V c 1 t) (iblk1 V c 2 t) (iblk1 V c 3 t) (iblk1 V c 4 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [A1 A2 A3 A4 A5 A6 A7 A8 HS Hg]
    · isplitr [Hg]
      swap; · iexact Hg
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexists _
      isplitl [HS]
      · unfold owns; iexists _; isplitr
        swap; · iexact HS
        ipureintro; rfl
      · ipureintro
        rw [piecesA_eq]
        exact scrInv_step V c t h f hf _
    isplitl [Ho]; · iexact Ho
    isplitl [H0]; · iexact H0
    isplitl [H1]; · iexact H1
    isplitl [H2]; · iexact H2
    isplitl [H3]; · iexact H3
    isplitl [H4]; · iexact H4
    iexists _; iexact H5
  · have h' : 25 ≤ t.val := Nat.le_of_not_lt h
    rw [show (dat1 V c).leavesExact 5 t = owns (c : Thread nD τ) (ms1_5 t) fullShare ((dat1 V c).after 5 t) from by
      unfold Dat.leavesExact; rw [liveAt1_5_B t h'], after1_5]
    rw [show min t.val 25 = 25 from Nat.min_eq_right h', show min (t.val + 1) 25 = 25 from Nat.min_eq_right (Nat.le_succ_of_le h')]
    iintro ⟨⟨⟨A1, A2, A3, A4, A5, A6, A7, A8, ⟨%f, HS, %hf⟩⟩, Hg⟩, Ho, ⟨%d0, H0⟩, ⟨%d1, H1⟩, ⟨%d2, H2⟩, ⟨%d3, H3⟩, ⟨%d4, H4⟩, ⟨%d5, H5⟩⟩
    obtain rfl := scrInv_full V c f hf
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      (fun h0 => by have := (hcond1_0 t).mp h0; omega) ((hcond1_1 t).mpr h') (iblk1 V c 0 t) (iblk1 V c 1 t) (iblk1 V c 2 t) (iblk1 V c 3 t) (iblk1 V c 4 t) (hop2fun V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%g, H5⟩, HS⟩
    isplitl [A1 A2 A3 A4 A5 A6 A7 A8 HS Hg]
    · isplitr [Hg]
      swap; · iexact Hg
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexists (hop2fun V c)
      isplitl [HS]
      · iexact HS
      · ipureintro; exact hf
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    rw [piecesB_eq]
    exact View.read_writes_eq_canon _ _ _ (cover1_5 _)

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The run of the whole program, at any float instance.

  On every core the program is three stretches in a row: four host operations (X narrowed to bf16, the
  weight matrix cut into four 256 × 256 slabs and narrowed, the bias read as a 1 × 256 row), then the
  first sweep (25 grid points: the adjacency matrix narrowed panel by panel and the first hop), then the
  second sweep (2 × 25 grid points: the second hop, then the output).  Nothing runs between the sweeps
  and nothing after the second.

  The contents of a core's unscoped buffers at the four boundaries are a fold from the launch memory:

      B₀  the launch memory,
      B₁  B₀ after the four host operations,
      B₂  B₁ with the first sweep's five arrays at what its write-backs leave,
      B₃  B₂ with the second sweep's six arrays at what its write-backs leave.

  This module names the fold, reads single buffers back through it (an argument is never written, so it
  ends as launched; the first sweep leaves its inputs and the buffers it does not stage as it found
  them), states each sweep as a segment over the thread state "every unscoped buffer at the boundary's
  contents, the generator register at some state, nothing owed", and launches the three segments: every
  weakly fair execution terminates without fault, and at the end every unscoped buffer of every core
  holds B₃.  The frame claim (the four arguments end as launched) is a corollary.
-/
import proofs.«118664_g34883724378360_cont_8to1_b_1789_21_alg».proof.Proof.Region0
import proofs.«118664_g34883724378360_cont_8to1_b_1789_21_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the four host operations: what the first sweep is entered from. -/
abbrev W1 : Dev nD → Valuation τ sig (Elt F) := fun c => StableHlo.after hostOps0 (W0 m ρ c)
/-- The same, read at the TensorCore's references (what the first sweep's proof data take). -/
abbrev V1 : (c : Dev nD) → (b : Ref sig .tc) → Buf (Elt F) ((c : Thread nD τ).loc b) := fun c b => W1 m ρ c b
/-- After the first sweep: its five arrays at what the pipeline leaves (an input as entered, an output with its
    write-backs folded in), every other buffer as entered.  The second sweep is entered from this. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (what the second sweep's proof data take). -/
abbrev V2 : (c : Dev nD) → (b : Ref sig .tc) → Buf (Elt F) ((c : Thread nD τ).loc b) := fun c b => W2 m ρ c b
/-- After the first sweep each of its arrays holds what the pipeline leaves, and every other buffer what it held
    when the sweep was entered. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second sweep, the end of the program: its six arrays at what the pipeline leaves, every other
    buffer as the sweep found it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Single buffers read back through the fold -/

/-- A buffer none of the four host operations writes holds after them what it held at launch. -/
theorem W1_of_not_written (c : Dev nD) (b : Ref sig .tc)
    (h0 : main_v0 ≠ b) (h1 : main_v1 ≠ b) (h2 : main_v2 ≠ b) (h3 : main_v3 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    exact ⟨StableHlo.devRef_ne_of_ne (Ne.symm h0), StableHlo.devRef_ne_of_ne (Ne.symm h1),
      StableHlo.devRef_ne_of_ne (Ne.symm h2), StableHlo.devRef_ne_of_ne (Ne.symm h3)⟩))

/-- The first sweep leaves an input array as it found it: the adjacency matrix (window 0), -/
theorem W2_main_arg1 (c : Dev nD) : W2 m ρ c (Proc.devRef .tc main_arg1) = W1 m ρ c (Proc.devRef .tc main_arg1) :=
  (W2_arr m ρ c 0).trans (((dat0 (V1 m ρ) c).arrAt_in 0 rfl _).trans (A_eq0 (V1 m ρ) c 0))
/-- the narrowed feature matrix (window 1), -/
theorem W2_main_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))
/-- the narrowed weight slabs (window 2); -/
theorem W2_main_v2 (c : Dev nD) : W2 m ρ c (Proc.devRef .tc main_v2) = W1 m ρ c (Proc.devRef .tc main_v2) :=
  (W2_arr m ρ c 2).trans (((dat0 (V1 m ρ) c).arrAt_in 2 rfl _).trans (A_eq0 (V1 m ρ) c 2))
/-- and the bias row, which it does not stage, is not touched. -/
theorem W2_main_v3 (c : Dev nD) : W2 m ρ c (Proc.devRef .tc main_v3) = W1 m ρ c (Proc.devRef .tc main_v3) :=
  W2_of_ne m ρ c main_v3 (by decide)

/-- The arguments end as launched: no host operation and neither sweep writes one.  The feature matrix: -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide) (by decide) (by decide) (by decide)
    _ = m ((c : Thread nD τ).loc main_arg0) := rfl
/-- the adjacency matrix (the first sweep reads it through an input window): -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_main_arg1 m ρ c
    _ = W0 m ρ c (Proc.devRef .tc main_arg1) := W1_of_not_written m ρ c main_arg1 (by decide) (by decide) (by decide) (by decide)
    _ = m ((c : Thread nD τ).loc main_arg1) := rfl
/-- the weight matrix: -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide) (by decide) (by decide)
    _ = m ((c : Thread nD τ).loc main_arg2) := rfl
/-- the bias: -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide) (by decide) (by decide) (by decide)
    _ = m ((c : Thread nD τ).loc main_arg3) := rfl

/-! ### The sweeps' outputs, by name -/

/-- After the first sweep the first-hop buffer and the narrowed adjacency matrix hold what the pipeline leaves in
    its windows 3 and 4; -/
theorem W2_main_v4_0 (c : Dev nD) : W2 m ρ c (Proc.devRef .tc main_v4_0) = (dat0 (V1 m ρ) c).arrAt 3 cfg0.N := W2_arr m ρ c 3
theorem W2_main_v4_1 (c : Dev nD) : W2 m ρ c (Proc.devRef .tc main_v4_1) = (dat0 (V1 m ρ) c).arrAt 4 cfg0.N := W2_arr m ρ c 4
/-- after the second sweep the result buffer holds what the pipeline leaves in its window 5. -/
theorem W3_main_v5 (c : Dev nD) : W3 m ρ c (Proc.devRef .tc main_v5) = (dat1 (V2 m ρ) c).arrAt 5 cfg1.N := W3_arr m ρ c 5

/-! ## The proof data family and the thread state -/

/-- Neither pipeline prefetches a table. -/
abbrev adm : (p : Fin 2) → (pcfgs (F := F) p).Adm := fun p => (cfgs p).toPCfg_adm
/-- Both pipelines' proof data, each at the contents its sweep is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A line of host operations as a segment: from every unscoped buffer at the contents `W` to every unscoped
    buffer at the contents after the line, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- None of the four host operations allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the final contents, the generator register
    at some state. -/
abbrev Tₙ (c : Dev nD) : sProp 𝕄 := iprop(StableHlo.held (c : Thread nD τ) (Pipeline.ucRefs τ sig) (W3 m ρ c) ∗ ∃ r, prngReg c r)

/-! ## The sweeps as segments -/

set_option backward.isDefEq.respectTransparency.types false in
/-- The first sweep over the thread state: entered from every unscoped buffer at `W1`, left at `W2`.  Its five
    arrays are split out of the unscoped buffers and put back at what the pipeline leaves; the generator register
    goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second sweep over the thread state: entered from every unscoped buffer at `W2`, left at `W3`, the end
    of the program.  Its six arrays are split out of the unscoped buffers and put back at what the pipeline
    leaves; the generator register and the scoped buffers the sweep does not stage — its carried accumulator
    among them — go into the pipeline's invariant at the first point and come back from it at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m ρ 1 c).Φ 0 from hin1 (V2 m ρ) c)
    unfold Pipeline.ΦA
    isplitl [Hr]; · iexact Hr
    iexact Hp
  hout c := by
    rw [Pipeline.ownSems0_none]
    iintro H
    ihave H' := (show (pdats m ρ 1 c).Φ (Fin.last _) ⊢ (Pipeline.ΦA spec1 c : sProp 𝕄) from hout1 (V2 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host line from the launch contents, then the two sweeps. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN.  At the compiled mesh, from any memory with every semaphore counter at zero, every weakly fair
    execution of the program on the TensorCores terminates, nothing faulting, and in every final state every
    unscoped buffer of every core holds the last boundary's contents `W3`. -/
theorem run : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of the program terminates, nothing faulting, and the four argument
    arrays end as launched — the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

/-- info: 'Cert.KernelIdeal.Hand.run' depends on axioms: [propext, Classical.choice, Quot.sound] -/
#guard_msgs in #print axioms run
/-- info: 'Cert.KernelIdeal.Hand.frame' depends on axioms: [propext, Classical.choice, Quot.sound] -/
#guard_msgs in #print axioms frame

end Cert.KernelIdeal.Hand

end
-- ==== Proof.Spec.lean ====
/-
  The mathematics of the certificate, with no program in it.

  Matrices are functions of two indices into the extended reals.  The kernel computes the graph
  convolution in Horner form,

      hop1 = (A·X)·W₃ + X·W₂,   hop2 = A·hop1 + X·W₁,   out = (A·hop2 + X·W₀) + b,

  and the reference stacks X, A·X, A²·X, A³·X side by side into a 10000 × 1024 matrix and
  multiplies it by the 1024 × 256 weight matrix, whose row 256·s + j is row j of the s-th
  256 × 256 weight block.  On real entries the two agree, by distributivity and associativity of
  the matrix product (HornerLaw.lean).
-/
import Idealize.ShloMosaic.PureOps.Ideal

noncomputable section

namespace Cert.Spec

open BigOperators

/-- The matrix product over the extended reals: entry (p, q) is the sum over k of P p k · Q k q. -/
def mm {ι κ μ : Type} [Fintype κ] (P : ι → κ → EReal) (Q : κ → μ → EReal) : ι → μ → EReal :=
  fun p q => ∑ k, P p k * Q k q

section Kernel

variable (X : Fin 10000 → Fin 256 → EReal) (A : Fin 10000 → Fin 10000 → EReal)
  (W : Fin 4 → Fin 256 → Fin 256 → EReal) (b : Fin 256 → EReal)

/-- First sweep: (A·X)·W₃ + X·W₂. -/
def hop1 : Fin 10000 → Fin 256 → EReal := fun p q => mm (mm A X) (W 3) p q + mm X (W 2) p q
/-- Second sweep: A·hop1 + X·W₁. -/
def hop2 : Fin 10000 → Fin 256 → EReal := fun p q => mm A (hop1 X A W) p q + mm X (W 1) p q
/-- Third sweep, the kernel's result: (A·hop2 + X·W₀) + b. -/
def kernelOut : Fin 10000 → Fin 256 → EReal := fun p q => (mm A (hop2 X A W) p q + mm X (W 0) p q) + b q

end Kernel

section Reference

variable (X : Fin 10000 → Fin 256 → EReal) (A : Fin 10000 → Fin 10000 → EReal)
  (Wf : Fin 1024 → Fin 256 → EReal) (b : Fin 256 → EReal)

/-- A·X, A²·X, A³·X. -/
def pow1 : Fin 10000 → Fin 256 → EReal := mm A X
def pow2 : Fin 10000 → Fin 256 → EReal := mm A (pow1 X A)
def pow3 : Fin 10000 → Fin 256 → EReal := mm A (pow2 X A)

/-- X, A·X, A²·X, A³·X side by side: column r lies in block r / 256 at column r % 256. -/
def stacked : Fin 10000 → Fin 1024 → EReal := fun p r =>
  if h0 : r.val < 256 then X p ⟨r.val, h0⟩
  else if h1 : r.val < 512 then pow1 X A p ⟨r.val - 256, by omega⟩
  else if h2 : r.val < 768 then pow2 X A p ⟨r.val - 512, by omega⟩
  else pow3 X A p ⟨r.val - 768, by have := r.isLt; omega⟩

/-- The reference's result: stacked · Wf + b. -/
def referenceOut : Fin 10000 → Fin 256 → EReal := fun p q => mm (stacked X A) Wf p q + b q

end Reference

/-- The 1024 × 256 weight matrix cut into four 256 × 256 blocks: block s, row j is row 256·s + j. -/
def blocks (Wf : Fin 1024 → Fin 256 → EReal) : Fin 4 → Fin 256 → Fin 256 → EReal :=
  fun s j q => Wf ⟨256 * s.val + j.val, by have := s.isLt; have := j.isLt; omega⟩ q

end Cert.Spec

end
-- ==== Proof.Value0.lean ====
/-
  The first sweep's two results as whole arrays, at the ideal instance, entry by entry.

  The sweep runs over 25 points; at point t it writes back, from its two output buffers, rows [400·t, 400·t + 400)
  of two arrays: of the adjacency matrix narrowed to bf16 — at the ideal instance narrowing is the identity, so
  the panel itself — and of the first hop,

      narrow( narrow(panel · X) · W₃ + X[400·t …, :] · W₂ )   =   (panel · X) · W₃ + X[400·t …, :] · W₂ .

  Here: each matrix product of the body read at an entry as the sum over the contracted index; the body's
  stored panel at an entry as those sums over the blocks it is handed; each block as the part of its array
  the index maps name (the adjacency panel at block row t, the features and the weights whole); so what point
  t writes back is block t of ONE array — the adjacency matrix, and (A·X)·W₃ + X·W₂ of Spec.lean; row p lies
  in the block of point p / 400, so the blocks cover both arrays and after the sweep the arrays are those.
-/
import proofs.«118664_g34883724378360_cont_8to1_b_1789_21_alg».proof.Proof.Region0
import proofs.«118664_g34883724378360_cont_8to1_b_1789_21_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

namespace Value0

/-! ## The body's arithmetic at an entry -/
section Payload
open Idealize.ShloMosaic.ValueIdx
open BigOperators

theorem mmAX_lhs0 (i : S400x256.Idx) (q : dot_S400x10000_S10000x256_S400x256_1_0_0_1_n_n.contr.Idx) : (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem mmAX_lhs1 (i : S400x256.Idx) (q : dot_S400x10000_S10000x256_S400x256_1_0_0_1_n_n.contr.Idx) : (dot_S400x10000_S10000x256_S400x256_1_0_0_1_n_n.lhsIdx i q 1).val = (q ⟨0, by decide⟩).val :=
  dot_S400x10000_S10000x256_S400x256_1_0_0_1_n_n.lhsIdx_val_of_single rfl i q
theorem mmAX_rhs0 (i : S400x256.Idx) (q : dot_S400x10000_S10000x256_S400x256_1_0_0_1_n_n.contr.Idx) : (dot_S400x10000_S10000x256_S400x256_1_0_0_1_n_n.rhsIdx i q 0).val = (q ⟨0, by decide⟩).val :=
  dot_S400x10000_S10000x256_S400x256_1_0_0_1_n_n.rhsIdx_val_of_single rfl i q
theorem mmAX_rhs1 (i : S400x256.Idx) (q : dot_S400x10000_S10000x256_S400x256_1_0_0_1_n_n.contr.Idx) : (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The matrix product into the zero accumulator, at an entry: the sum over the contracted index of the products. -/
theorem mmAX_apply {φ₁ φ₂ : FTy} (l : FVec Ideal S400x10000 φ₁) (r : FVec Ideal S10000x256 φ₂) (a : Fin 400) (b : Fin 256) :
    matmul dot_S400x10000_S10000x256_S400x256_1_0_0_1_n_n none l r (constant (F := Ideal) S400x256 .f32 0x00000000#32) (ix2 a b)
      = ∑ k : Fin 10000, l (ix2 a k) * r (ix2 k b) := by
  refine (Ideal.matmul_constant_zero_apply dot_S400x10000_S10000x256_S400x256_1_0_0_1_n_n none l r (ix2 a b)).trans ?_
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 a b) ((contrEquiv1 dot_S400x10000_S10000x256_S400x256_1_0_0_1_n_n 10000 rfl rfl).symm k) = ix2 a k := funext fun x => Fin.ext (by
    match x with
    | ⟨0, _⟩ => exact mmAX_lhs0 _ _
    | ⟨1, _⟩ => exact (mmAX_lhs1 _ _).trans hk)
  have er : dot_S400x10000_S10000x256_S400x256_1_0_0_1_n_n.rhsIdx (ix2 a b) ((contrEquiv1 dot_S400x10000_S10000x256_S400x256_1_0_0_1_n_n 10000 rfl rfl).symm k) = ix2 k b := funext fun x => Fin.ext (by
    match x with
    | ⟨0, _⟩ => exact (mmAX_rhs0 _ _).trans hk
    | ⟨1, _⟩ => exact mmAX_rhs1 _ _)
  rw [el, er]

theorem mmUW_lhs0 (i : S400x256.Idx) (q : dot_S400x256_S256x256_S400x256_1_0_0_1_n_n.contr.Idx) : (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem mmUW_lhs1 (i : S400x256.Idx) (q : dot_S400x256_S256x256_S400x256_1_0_0_1_n_n.contr.Idx) : (dot_S400x256_S256x256_S400x256_1_0_0_1_n_n.lhsIdx i q 1).val = (q ⟨0, by decide⟩).val :=
  dot_S400x256_S256x256_S400x256_1_0_0_1_n_n.lhsIdx_val_of_single rfl i q
theorem mmUW_rhs0 (i : S400x256.Idx) (q : dot_S400x256_S256x256_S400x256_1_0_0_1_n_n.contr.Idx) : (dot_S400x256_S256x256_S400x256_1_0_0_1_n_n.rhsIdx i q 0).val = (q ⟨0, by decide⟩).val :=
  dot_S400x256_S256x256_S400x256_1_0_0_1_n_n.rhsIdx_val_of_single rfl i q
theorem mmUW_rhs1 (i : S400x256.Idx) (q : dot_S400x256_S256x256_S400x256_1_0_0_1_n_n.contr.Idx) : (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- The matrix product into the zero accumulator, at an entry: the sum over the contracted index of the products. -/
theorem mmUW_apply {φ₁ φ₂ : FTy} (l : FVec Ideal S400x256 φ₁) (r : FVec Ideal S256x256 φ₂) (a : Fin 400) (b : Fin 256) :
    matmul dot_S400x256_S256x256_S400x256_1_0_0_1_n_n none l r (constant (F := Ideal) S400x256 .f32 0x00000000#32) (ix2 a b)
      = ∑ k : Fin 256, l (ix2 a k) * r (ix2 k b) := by
  refine (Ideal.matmul_constant_zero_apply dot_S400x256_S256x256_S400x256_1_0_0_1_n_n none l r (ix2 a b)).trans ?_
  rw [← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 a b) ((contrEquiv1 dot_S400x256_S256x256_S400x256_1_0_0_1_n_n 256 rfl rfl).symm k) = ix2 a k := funext fun x => Fin.ext (by
    match x with
    | ⟨0, _⟩ => exact mmUW_lhs0 _ _
    | ⟨1, _⟩ => exact (mmUW_lhs1 _ _).trans hk)
  have er : dot_S400x256_S256x256_S400x256_1_0_0_1_n_n.rhsIdx (ix2 a b) ((contrEquiv1 dot_S400x256_S256x256_S400x256_1_0_0_1_n_n 256 rfl rfl).symm k) = ix2 k b := funext fun x => Fin.ext (by
    match x with
    | ⟨0, _⟩ => exact (mmUW_rhs0 _ _).trans hk
    | ⟨1, _⟩ => exact mmUW_rhs1 _ _)
  rw [el, er]

/-- Narrowing is the identity on extended reals: the bf16 panel is the panel. -/
theorem pay1_apply (v0 : Vec Ideal S400x10000 .f32) (j : S400x10000.Idx) : k0_pay1 (F := Ideal) v0 j = v0 j := rfl

/-- The first-hop panel at an entry: with P the adjacency panel, X the features, Xr the panel's own rows of the
    features and W₃, W₂ the two weight slabs, entry (r, q) is Σ_k' (Σ_k P r k · X k k') · W₃ k' q + Σ_k' Xr r k' · W₂ k' q. -/
theorem pay2_apply (v0 : Vec Ideal S400x10000 .f32) (v3 : Vec Ideal S10000x256 .bf16) (v8 : Vec Ideal S400x256 .bf16)
    (v11 v14 : Vec Ideal S1x256x256 .bf16) (r : Fin 400) (q : Fin 256) :
    k0_pay2 (F := Ideal) v0 v3 v8 v11 v14 (ix2 r q)
      = (∑ k' : Fin 256, (∑ k : Fin 10000, v0 (ix2 r k) * v3 (ix2 k k')) * v11 (ix3 (0 : Fin 1) k' q))
        + ∑ k' : Fin 256, v8 (ix2 r k') * v14 (ix3 (0 : Fin 1) k' q) := by
  unfold k0_pay2
  rw [truncf_apply, addf_apply, mmUW_apply, mmUW_apply]
  congr 1
  · refine Finset.sum_congr rfl fun k' _ => ?_
    rw [truncf_apply, mmAX_apply, shapeCast_1ab_ab_apply]
    congr 1
    refine Finset.sum_congr rfl fun k _ => ?_
    rw [shapeCast_self]
    rfl
  · refine Finset.sum_congr rfl fun k' _ => ?_
    rw [shapeCast_self, shapeCast_1ab_ab_apply]
end Payload

/-! ## From panels to arrays -/
section Arrays
open Idealize.ShloMosaic.ValueIdx
open BigOperators

variable (V : (c : Dev nD) → (b : Ref sig .tc) → Buf (Elt Ideal) ((c : Thread nD τ).loc b)) (c : Dev nD)

theorem zero2 : (![0, 0] : Fin 2 → Nat) = fun _ => 0 := funext fun a => by fin_cases a <;> rfl

/-- The index maps over the 25 points: the adjacency panel and the two output panels sit at block row t, the
    feature matrix and the weight tensor are whole, and the point's one coordinate is t. -/
theorem idx_facts0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 3) = 0 ∧ win0_2.index t (1 : Fin 3) = 0 ∧ win0_2.index t (2 : Fin 3) = 0
  ∧ win0_3.index t (0 : Fin 2) = t.val ∧ win0_3.index t (1 : Fin 2) = 0
  ∧ win0_4.index t (0 : Fin 2) = t.val ∧ win0_4.index t (1 : Fin 2) = 0
  ∧ ((grid0.coords t) 0).val = t.val :=
  (by decide +kernel : ∀ t : Fin grid0.N, _)

/-- The adjacency panel at point t is rows [400·t, 400·t + 400) of the adjacency matrix. -/
theorem panelA_apply (t : Fin cfg0.N) (y : S400x10000.Idx) (i : S10000x10000.Idx)
    (h0 : (i 0).val = 400 * t.val + (y 0).val) (h1 : (i 1).val = (y 1).val) :
    (iblk0 V c 0 t : S400x10000.Idx → EReal) y = (V c main_arg1 : S10000x10000.Idx → EReal) i := by
  obtain ⟨e00, e01, -⟩ := idx_facts0 t
  unfold iblk0
  show (V c main_arg1 : S10000x10000.Idx → EReal) (((cfg0.win 0).blk t).view.emb y) = _
  refine congrArg _ (funext fun a => Fin.ext ?_)
  match a with
  | ⟨0, _⟩ => show win0_0.index t (0 : Fin 2) * 400 + 1 * (y 0).val = (i 0).val; rw [e00, h0]; omega
  | ⟨1, _⟩ => show win0_0.index t (1 : Fin 2) * 10000 + 1 * (y 1).val = (i 1).val; rw [e01, h1]; omega

/-- The feature window's block is the whole feature matrix at every point. -/
theorem blockX_eq (t : Fin cfg0.N) : (iblk0 V c 1 t : S10000x256.Idx → EReal) = (V c main_v0 : S10000x256.Idx → EReal) := by
  obtain ⟨-, -, e10, e11, -⟩ := idx_facts0 t
  unfold iblk0
  funext y
  show (V c main_v0 : S10000x256.Idx → EReal) (((cfg0.win 1).blk t).view.emb y) = _
  refine congrArg _ (funext fun a => Fin.ext ?_)
  match a with
  | ⟨0, _⟩ => show win0_1.index t (0 : Fin 2) * 10000 + 1 * (y 0).val = (y 0).val; rw [e10]; omega
  | ⟨1, _⟩ => show win0_1.index t (1 : Fin 2) * 256 + 1 * (y 1).val = (y 1).val; rw [e11]; omega

/-- The weight window's block is the whole weight tensor at every point. -/
theorem blockW_eq (t : Fin cfg0.N) : (iblk0 V c 2 t : S4x256x256.Idx → EReal) = (V c main_v2 : S4x256x256.Idx → EReal) := by
  obtain ⟨-, -, -, -, e20, e21, e22, -⟩ := idx_facts0 t
  unfold iblk0
  funext y
  show (V c main_v2 : S4x256x256.Idx → EReal) (((cfg0.win 2).blk t).view.emb y) = _
  refine congrArg _ (funext fun a => Fin.ext ?_)
  match a with
  | ⟨0, _⟩ => show win0_2.index t (0 : Fin 3) * 4 + 1 * (y 0).val = (y 0).val; rw [e20]; omega
  | ⟨1, _⟩ => show win0_2.index t (1 : Fin 3) * 256 + 1 * (y 1).val = (y 1).val; rw [e21]; omega
  | ⟨2, _⟩ => show win0_2.index t (2 : Fin 3) * 256 + 1 * (y 2).val = (y 2).val; rw [e22]; omega

/-- A weight slab read out of the weight tensor: entry (0, j, q) of slab s is entry (s, j, q) of the tensor. -/
theorem ld_slab (x : Vec Ideal S4x256x256 .bf16) (s : Fin 4) (off : Fin 3 → Nat) (inb : ∀ a, off a + S1x256x256.size a ≤ S4x256x256.size a)
    (hoff : off = ![s.val, 0, 0]) (j q : Fin 256) :
    View.ld x (Rect.unit (s := S4x256x256) off S1x256x256.size inb) (ix3 (0 : Fin 1) j q) = x (ix3 s j q) := by
  subst hoff
  show x ((Rect.unit (s := S4x256x256) ![s.val, 0, 0] S1x256x256.size inb).emb (ix3 (0 : Fin 1) j q)) = _
  refine congrArg _ (funext fun a => Fin.ext ?_)
  rw [Rect.emb_apply, Rect.off_unit, Rect.stride_unit]
  match a with
  | ⟨0, _⟩ => show s.val + 1 * 0 = s.val; omega
  | ⟨1, _⟩ => show 0 + 1 * j.val = j.val; omega
  | ⟨2, _⟩ => show 0 + 1 * q.val = q.val; omega

/-- The panel's own rows read out of the feature matrix: entry (r, j) is entry (400·n + r, j) of the matrix. -/
theorem ld_rows (x : Vec Ideal S10000x256 .bf16) (n : Nat) (off : Fin 2 → Nat) (inb : ∀ a, off a + S400x256.size a ≤ S10000x256.size a)
    (hoff : off = ![400 * n, 0]) (r : Fin 400) (j : Fin 256) (p : Fin 10000) (hp : p.val = 400 * n + r.val) :
    View.ld x (Rect.unit (s := S10000x256) off S400x256.size inb) (ix2 r j) = x (ix2 p j) := by
  subst hoff
  show x ((Rect.unit (s := S10000x256) ![400 * n, 0] S400x256.size inb).emb (ix2 r j)) = _
  refine congrArg _ (funext fun a => Fin.ext ?_)
  rw [Rect.emb_apply, Rect.off_unit, Rect.stride_unit]
  match a with
  | ⟨0, _⟩ => show 400 * n + 1 * r.val = p.val; omega
  | ⟨1, _⟩ => show 0 + 1 * j.val = j.val; omega

/-- One entry of the first-hop panel, over plain arrays: when the three blocks the body is handed are the panel of
    rows [400·n, 400·n + 400) of A, the whole of X and the whole of W, entry (r, q) of what it stores is entry
    (400·n + r, q) of (A·X)·W₃ + X·W₂. -/
theorem hop_panel_entry (X : S10000x256.Idx → EReal) (A : S10000x10000.Idx → EReal) (W : S4x256x256.Idx → EReal)
    (x0 : Vec Ideal S400x10000 .f32) (x1 : Vec Ideal S10000x256 .bf16) (x2 : Vec Ideal S4x256x256 .bf16)
    (off : Fin 2 → Nat) (inb : ∀ a, off a + S400x256.size a ≤ S10000x256.size a) (n : Nat)
    (hoff : off = ![400 * n, 0]) (r : Fin 400) (q : Fin 256) (p : Fin 10000) (hp : p.val = 400 * n + r.val)
    (h0 : ∀ k : Fin 10000, x0 (ix2 r k) = A (ix2 p k)) (h1 : x1 = X) (h2 : x2 = W) :
    k0_pay2 (F := Ideal) x0 x1 (View.ld x1 (Rect.unit (s := S10000x256) off S400x256.size inb)) (View.ld x2 rW0_3) (View.ld x2 rW0_2) (ix2 r q)
      = Cert.Spec.hop1 (fun p j => X (ix2 p j)) (fun p k => A (ix2 p k)) (fun s j q => W (ix3 s j q)) p q := by
  subst h1 h2
  rw [pay2_apply]
  unfold Cert.Spec.hop1 Cert.Spec.mm
  congr 1
  · refine Finset.sum_congr rfl fun k' _ => ?_
    congr 1
    · exact Finset.sum_congr rfl fun k _ => by rw [h0]
    · exact ld_slab x2 3 _ _ rfl k' q
  · refine Finset.sum_congr rfl fun k' _ => ?_
    congr 1
    · exact ld_rows x1 n off inb hoff r k' p hp
    · exact ld_slab x2 2 _ _ rfl k' q

end Arrays

/-! ## What each point writes back, the cover, and the two arrays after the sweep -/
section Final
open Idealize.ShloMosaic.ValueIdx
open BigOperators

variable (V : (c : Dev nD) → (b : Ref sig .tc) → Buf (Elt Ideal) ((c : Thread nD τ).loc b)) (c : Dev nD)

/-- The first hop as one array: entry (p, q) is entry (p, q) of (A·X)·W₃ + X·W₂, with X, A and W the feature
    matrix, the adjacency matrix and the weight tensor as the sweep finds them. -/
def hopArr : S10000x256.Idx → EReal := fun i =>
  Cert.Spec.hop1 (fun p j => (V c main_v0 : S10000x256.Idx → EReal) (ix2 p j))
    (fun p k => (V c main_arg1 : S10000x10000.Idx → EReal) (ix2 p k))
    (fun s j q => (V c main_v2 : S4x256x256.Idx → EReal) (ix3 s j q))
    ⟨(i 0).val, idx2_lt0 i⟩ ⟨(i 1).val, idx2_lt1 i⟩

theorem hopArr_ix2 (p : Fin 10000) (q : Fin 256) :
    hopArr V c (ix2 p q) = Cert.Spec.hop1 (fun p j => (V c main_v0 : S10000x256.Idx → EReal) (ix2 p j))
      (fun p k => (V c main_arg1 : S10000x10000.Idx → EReal) (ix2 p k))
      (fun s j q => (V c main_v2 : S4x256x256.Idx → EReal) (ix3 s j q)) p q := rfl

/-- What point t writes back to the bf16 adjacency array is its block of the adjacency matrix. -/
theorem flushed0_4_eq (t : Fin cfg0.N) :
    (dat0 (F := Ideal) V c).flushed 4 t
      = ((cfg0.win 4).blk t).view.read (Elt Ideal) (V c main_arg1 : S10000x10000.Idx → EReal) := by
  show (cfg0.win 4).cut (grid0.coords t) ((dat0 (F := Ideal) V c).after 4 t) = _
  rw [after0_4]
  unfold out0_4
  rw [View.canon_unit_zero zero2]
  simp only [View.ld_unit_zero (S := S400x10000) zero2]
  obtain ⟨-, -, -, -, -, -, -, -, -, e40, e41, -⟩ := idx_facts0 t
  funext j
  show k0_pay1 (F := Ideal) (iblk0 V c 0 t) j = (V c main_arg1 : S10000x10000.Idx → EReal) (((cfg0.win 4).blk t).view.emb j)
  refine (pay1_apply _ j).trans ?_
  refine panelA_apply V c t j _ ?_ ?_
  · show win0_4.index t (0 : Fin 2) * 400 + 1 * (j 0).val = 400 * t.val + (j 0).val
    rw [e40]; omega
  · show win0_4.index t (1 : Fin 2) * 10000 + 1 * (j 1).val = (j 1).val
    rw [e41]; omega

/-- What point t writes back to the first-hop array is its block of the first hop. -/
theorem flushed0_3_eq (t : Fin cfg0.N) :
    (dat0 (F := Ideal) V c).flushed 3 t = ((cfg0.win 3).blk t).view.read (Elt Ideal) (hopArr V c) := by
  show (cfg0.win 3).cut (grid0.coords t) ((dat0 (F := Ideal) V c).after 3 t) = _
  rw [after0_3]
  unfold out0_3
  rw [View.canon_unit_zero zero2]
  simp only [View.ld_unit_zero (S := S400x10000) zero2, View.ld_unit_zero (S := S10000x256) zero2]
  obtain ⟨-, -, -, -, -, -, -, e30, e31, -, -, ec⟩ := idx_facts0 t
  have hN : cfg0.N = 25 := N_0
  have ht : t.val < 25 := hN ▸ t.isLt
  funext j
  obtain ⟨r, q, rfl⟩ : ∃ (r : Fin 400) (q : Fin 256), j = ix2 r q := ⟨j 0, j 1, eq_ix2 j⟩
  show k0_pay2 (F := Ideal) (iblk0 V c 0 t) (iblk0 V c 1 t) (View.ld (iblk0 V c 1 t) (rXrow0 (grid0.coords t)))
      (View.ld (iblk0 V c 2 t) rW0_3) (View.ld (iblk0 V c 2 t) rW0_2) (ix2 r q)
    = hopArr V c (((cfg0.win 3).blk t).view.emb (ix2 r q))
  have hp : 400 * t.val + r.val < 10000 := by have := r.isLt; omega
  refine (hop_panel_entry (V c main_v0) (V c main_arg1) (V c main_v2) (iblk0 V c 0 t) (iblk0 V c 1 t) (iblk0 V c 2 t)
    (k0_off1 (grid0.coords t)) (k0_off1_inb (grid0.coords t)) t.val (by rw [k0_off1_eq, ec]) r q ⟨400 * t.val + r.val, hp⟩ rfl
    (fun k => panelA_apply V c t _ _ rfl rfl) (blockX_eq V c t) (blockW_eq V c t)).trans ?_
  refine (hopArr_ix2 V c _ q).symm.trans (congrArg (hopArr V c) (funext fun a => Fin.ext ?_))
  match a with
  | ⟨0, _⟩ => show 400 * t.val + r.val = win0_3.index t (0 : Fin 2) * 400 + 1 * r.val; rw [e30]; omega
  | ⟨1, _⟩ => show q.val = win0_3.index t (1 : Fin 2) * 256 + 1 * q.val; rw [e31]; omega

/-- An index of the bf16 adjacency array is in point t's block iff each coordinate is in the block's range. -/
theorem mem_blk0_4 (t : Fin cfg0.N) (i : S10000x10000.Idx) :
    i ∈ ((cfg0.win 4).blk t).view.set ↔ ∀ a : Fin 2, win0_4.index t a * S400x10000.size a ≤ (i a).val ∧ (i a).val < win0_4.index t a * S400x10000.size a + S400x10000.size a := by
  show i ∈ ((View.whole main_v4_1).slice (win0_4.rect t)).set ↔ _
  rw [View.set_slice_whole, Rect.mem_set_unit]
  exact Iff.rfl

/-- The same for the first-hop array. -/
theorem mem_blk0_3 (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v4_0).slice (win0_3.rect t)).set ↔ _
  rw [View.set_slice_whole, Rect.mem_set_unit]
  exact Iff.rfl

/-- Row p of the bf16 adjacency array lies in the block of point p / 400. -/
theorem panels_cover0_4 (i : S10000x10000.Idx) :
    ∃ t : Fin cfg0.N, (cfg0.win 4).flush t = true ∧ i ∈ ((cfg0.win 4).blk t).view.set := by
  have hi0 : (i 0).val < 10000 := idx2_lt0 i
  have hi1 : (i 1).val < 10000 := idx2_lt1 i
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, -, e40, e41, -⟩ := idx_facts0 t
  refine ⟨t, flush0_4 t, ?_⟩
  rw [mem_blk0_4]
  intro a
  match a with
  | ⟨0, _⟩ => show win0_4.index t (0 : Fin 2) * 400 ≤ (i 0).val ∧ (i 0).val < win0_4.index t (0 : Fin 2) * 400 + 400; rw [e40, ht]; omega
  | ⟨1, _⟩ => show win0_4.index t (1 : Fin 2) * 10000 ≤ (i 1).val ∧ (i 1).val < win0_4.index t (1 : Fin 2) * 10000 + 10000; rw [e41]; omega

/-- Row p of the first-hop array lies in the block of point p / 400. -/
theorem panels_cover0_3 (i : S10000x256.Idx) :
    ∃ t : Fin cfg0.N, (cfg0.win 3).flush t = true ∧ i ∈ ((cfg0.win 3).blk t).view.set := by
  have hi0 : (i 0).val < 10000 := idx2_lt0 i
  have hi1 : (i 1).val < 256 := idx2_lt1 i
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, e30, e31, -⟩ := idx_facts0 t
  refine ⟨t, flush0_3 t, ?_⟩
  rw [mem_blk0_3]
  intro a
  match a with
  | ⟨0, _⟩ => show win0_3.index t (0 : Fin 2) * 400 ≤ (i 0).val ∧ (i 0).val < win0_3.index t (0 : Fin 2) * 400 + 400; rw [e30, ht]; omega
  | ⟨1, _⟩ => show win0_3.index t (1 : Fin 2) * 256 ≤ (i 1).val ∧ (i 1).val < win0_3.index t (1 : Fin 2) * 256 + 256; rw [e31]; omega

/-- After the first sweep the bf16 adjacency array holds the adjacency matrix. -/
theorem arr0_4_eq : (dat0 (F := Ideal) V c).arrAt 4 cfg0.N = (V c main_arg1 : S10000x10000.Idx → EReal) :=
  (dat0 (F := Ideal) V c).arrAt_eq_of_cover 4 (V c main_arg1 : S10000x10000.Idx → EReal)
    (fun t _ => flushed0_4_eq V c t) (panels_cover0_4)

/-- After the first sweep the first-hop array holds (A·X)·W₃ + X·W₂. -/
theorem arr0_3_eq : (dat0 (F := Ideal) V c).arrAt 3 cfg0.N = hopArr V c :=
  (dat0 (F := Ideal) V c).arrAt_eq_of_cover 3 (hopArr V c) (fun t _ => flushed0_3_eq V c t) (panels_cover0_3)

end Final

end Value0

/-! ## The two arrays after the first sweep, entry by entry -/
section Entries

variable (V : (c : Dev nD) → (b : Ref sig .tc) → Buf (Elt Ideal) ((c : Thread nD τ).loc b)) (c : Dev nD)

/-- Entry (p, k) of the bf16 adjacency array after the first sweep is entry (p, k) of the adjacency matrix. -/
theorem arr0_4 (p : Fin 10000) (k : Fin 10000) :
    (dat0 (F := Ideal) V c).arrAt 4 cfg0.N (ValueIdx.ix2 p k) = V c main_arg1 (ValueIdx.ix2 p k) :=
  congrFun (Value0.arr0_4_eq V c) (ValueIdx.ix2 p k)

/-- Entry (p, q) of the first-hop array after the first sweep is entry (p, q) of (A·X)·W₃ + X·W₂, with X, A and
    W the feature matrix, the adjacency matrix and the weight tensor as the sweep finds them. -/
theorem arr0_3 (p : Fin 10000) (q : Fin 256) :
    (dat0 (F := Ideal) V c).arrAt 3 cfg0.N (ValueIdx.ix2 p q)
      = Cert.Spec.hop1 (fun p j => V c main_v0 (ValueIdx.ix2 p j)) (fun p k => V c main_arg1 (ValueIdx.ix2 p k))
          (fun s j q => V c main_v2 (ValueIdx.ix3 s j q)) p q :=
  (congrFun (Value0.arr0_3_eq V c) (ValueIdx.ix2 p q)).trans (Value0.hopArr_ix2 V c p q)

end Entries

end Cert.KernelIdeal.Hand

end
-- ==== Proof.Payloads1.lean ====
/-
  The second sweep body's two stored values, read at an index, at the ideal instance.

  Both are a row block of A (400 × 10000) times a 10000 × 256 matrix, plus the 400 × 256 block of X
  times one 256 × 256 slab of the weights; the last adds the bias row.  At the ideal instance a
  matrix product into the zero accumulator is the plain sum of products over the contraction
  index, a reshape that only adds or drops a unit axis re-reads the same element, a change of
  float format is the identity, and a row broadcast reads the one row.
-/
import proofs.«118664_g34883724378360_cont_8to1_b_1789_21_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

open scoped BigOperators

/-! ### The two matrix products at an index -/

local notation "dotA" => dot_S400x10000_S10000x256_S400x256_1_0_0_1_n_n
local notation "dotX" => dot_S400x256_S256x256_S400x256_1_0_0_1_n_n

theorem dotA_lhs0 (i : S400x256.Idx) (k : (dotA).contr.Idx) : ((dotA).lhsIdx i k 0).val = (i 0).val := by
  unfold DotDims.lhsIdx
  rw [dif_neg (show ¬(0 : Fin S400x10000.rank) ∈ (dotA).lhsBatch by decide),
    dif_pos (show (0 : Fin S400x10000.rank) ∈ (dotA).lhsNonContracting by decide)]
  rfl
theorem dotA_lhs1 (i : S400x256.Idx) (k : (dotA).contr.Idx) :
    ((dotA).lhsIdx i k 1).val = (k ⟨0, by decide⟩).val :=
  (dotA).lhsIdx_val_of_single rfl i k
theorem dotA_rhs0 (i : S400x256.Idx) (k : (dotA).contr.Idx) :
    ((dotA).rhsIdx i k 0).val = (k ⟨0, by decide⟩).val :=
  (dotA).rhsIdx_val_of_single rfl i k
theorem dotA_rhs1 (i : S400x256.Idx) (k : (dotA).contr.Idx) : ((dotA).rhsIdx i k 1).val = (i 1).val := by
  unfold DotDims.rhsIdx
  rw [dif_neg (show ¬(1 : Fin S10000x256.rank) ∈ (dotA).rhsBatch by decide),
    dif_pos (show (1 : Fin S10000x256.rank) ∈ (dotA).rhsNonContracting by decide)]
  rfl

theorem dotX_lhs0 (i : S400x256.Idx) (k : (dotX).contr.Idx) : ((dotX).lhsIdx i k 0).val = (i 0).val := by
  unfold DotDims.lhsIdx
  rw [dif_neg (show ¬(0 : Fin S400x256.rank) ∈ (dotX).lhsBatch by decide),
    dif_pos (show (0 : Fin S400x256.rank) ∈ (dotX).lhsNonContracting by decide)]
  rfl
theorem dotX_lhs1 (i : S400x256.Idx) (k : (dotX).contr.Idx) :
    ((dotX).lhsIdx i k 1).val = (k ⟨0, by decide⟩).val :=
  (dotX).lhsIdx_val_of_single rfl i k
theorem dotX_rhs0 (i : S400x256.Idx) (k : (dotX).contr.Idx) :
    ((dotX).rhsIdx i k 0).val = (k ⟨0, by decide⟩).val :=
  (dotX).rhsIdx_val_of_single rfl i k
theorem dotX_rhs1 (i : S400x256.Idx) (k : (dotX).contr.Idx) : ((dotX).rhsIdx i k 1).val = (i 1).val := by
  unfold DotDims.rhsIdx
  rw [dif_neg (show ¬(1 : Fin S256x256.rank) ∈ (dotX).rhsBatch by decide),
    dif_pos (show (1 : Fin S256x256.rank) ∈ (dotX).rhsNonContracting by decide)]
  rfl

/-- The 400 × 10000 by 10000 × 256 product into the zero accumulator, at (r, q): the sum over k of
l (r, k) · m (k, q). -/
theorem matmulA_apply (l : FVec Ideal S400x10000 .bf16) (m : FVec Ideal S10000x256 .bf16) (r : Fin 400) (q : Fin 256) :
    matmul dotA none l m (constant (F := Ideal) S400x256 .f32 0x00000000#32) (ix2 r q)
      = ∑ k : Fin 10000, l (ix2 r k) * m (ix2 k q) := by
  simp only [matmul]
  rw [Ideal.matmul_constant_zero_apply, ← Equiv.sum_comp (contrEquiv1 dotA 10000 rfl rfl).symm]
  refine Finset.sum_congr rfl fun k _ => ?_
  have hk := contrEquiv1_symm_val dotA 10000 rfl rfl k
  have el : (dotA).lhsIdx (ix2 r q) ((contrEquiv1 dotA 10000 rfl rfl).symm k) = ix2 r k :=
    funext fun a => Fin.ext (by
      match a with
      | ⟨0, _⟩ => exact dotA_lhs0 _ _
      | ⟨1, _⟩ => exact (dotA_lhs1 _ _).trans hk)
  have er : (dotA).rhsIdx (ix2 r q) ((contrEquiv1 dotA 10000 rfl rfl).symm k) = ix2 k q :=
    funext fun a => Fin.ext (by
      match a with
      | ⟨0, _⟩ => exact (dotA_rhs0 _ _).trans hk
      | ⟨1, _⟩ => exact dotA_rhs1 _ _)
  rw [el, er]

/-- The 400 × 256 by 256 × 256 product into the zero accumulator, at (r, q): the sum over j of
l (r, j) · m (j, q). -/
theorem matmulX_apply (l : FVec Ideal S400x256 .bf16) (m : FVec Ideal S256x256 .bf16) (r : Fin 400) (q : Fin 256) :
    matmul dotX none l m (constant (F := Ideal) S400x256 .f32 0x00000000#32) (ix2 r q)
      = ∑ j : Fin 256, l (ix2 r j) * m (ix2 j q) := by
  simp only [matmul]
  rw [Ideal.matmul_constant_zero_apply, ← Equiv.sum_comp (contrEquiv1 dotX 256 rfl rfl).symm]
  refine Finset.sum_congr rfl fun k _ => ?_
  have hk := contrEquiv1_symm_val dotX 256 rfl rfl k
  have el : (dotX).lhsIdx (ix2 r q) ((contrEquiv1 dotX 256 rfl rfl).symm k) = ix2 r k :=
    funext fun a => Fin.ext (by
      match a with
      | ⟨0, _⟩ => exact dotX_lhs0 _ _
      | ⟨1, _⟩ => exact (dotX_lhs1 _ _).trans hk)
  have er : (dotX).rhsIdx (ix2 r q) ((contrEquiv1 dotX 256 rfl rfl).symm k) = ix2 k q :=
    funext fun a => Fin.ext (by
      match a with
      | ⟨0, _⟩ => exact (dotX_rhs0 _ _).trans hk
      | ⟨1, _⟩ => exact dotX_rhs1 _ _)
  rw [el, er]

/-! ### The payloads -/

/-- The reshape of the X block to its own shape is the X block. -/
theorem pay1_eq (v2 : Vec Ideal S400x256 .bf16) : k1_pay1 (F := Ideal) v2 = v2 := by
  unfold k1_pay1
  exact shapeCast_self _ _

/-- The second sweep's value at (r, q): row r of the A block times column q of the 10000 × 256
operand, plus row r of the X block times column q of the weight slab. -/
theorem pay2_apply (v2 : Vec Ideal S400x256 .bf16) (v10 : Vec Ideal S400x10000 .bf16)
    (v12 : Vec Ideal S10000x256 .bf16) (v15 : Vec Ideal S1x256x256 .bf16) (r : Fin 400) (q : Fin 256) :
    k1_pay2 (F := Ideal) v2 v10 v12 v15 (ix2 r q)
      = (∑ k : Fin 10000, v10 (ix2 r k) * v12 (ix2 k q))
        + (∑ j : Fin 256, v2 (ix2 r j) * v15 (ix3 (0 : Fin 1) j q)) := by
  unfold k1_pay2
  rw [pay1_eq, shapeCast_self, shapeCast_self, shapeCast_self, truncf_apply, addf_apply,
    matmulA_apply, matmulX_apply]
  refine congrArg (_ + ·) (Finset.sum_congr rfl fun j _ => ?_)
  rw [shapeCast_1ab_ab_apply]

/-- The third sweep's value at (r, q): the same two products, plus the bias at q. -/
theorem pay3_apply (v2 : Vec Ideal S400x256 .bf16) (v10 : Vec Ideal S400x10000 .bf16)
    (v12 : Vec Ideal S10000x256 .bf16) (v14 : Vec Ideal S1x256x256 .bf16) (v18 : Vec Ideal S1x256 .f32)
    (r : Fin 400) (q : Fin 256) :
    k1_pay3 (F := Ideal) v2 v10 v12 v14 v18 (ix2 r q)
      = ((∑ k : Fin 10000, v10 (ix2 r k) * v12 (ix2 k q))
          + (∑ j : Fin 256, v2 (ix2 r j) * v14 (ix3 (0 : Fin 1) j q)))
        + v18 (ix2 (0 : Fin 1) q) := by
  unfold k1_pay3
  rw [pay1_eq, shapeCast_self, shapeCast_self, addf_apply, addf_apply, matmulA_apply, matmulX_apply,
    broadcastTo_1b_ab_apply]
  refine congrArg (fun z => _ + z + _) (Finset.sum_congr rfl fun j _ => ?_)
  rw [shapeCast_1ab_ab_apply]

end Cert.KernelIdeal.Hand

end
-- ==== Proof.SpecSweeps.lean ====
/-
  The second pallas_call's two sweeps as functions of what it is handed: the adjacency matrix, the first
  sweep's result, the features, the four weight blocks and the bias.  The Horner form of Spec.lean is these
  two applied to the first sweep's result.
-/
import proofs.«118664_g34883724378360_cont_8to1_b_1789_21_alg».proof.Proof.Spec

noncomputable section

namespace Cert.Spec

variable (X : Fin 10000 → Fin 256 → EReal) (A : Fin 10000 → Fin 10000 → EReal)
  (W : Fin 4 → Fin 256 → Fin 256 → EReal) (b : Fin 256 → EReal)

/-- One middle sweep: A·U + X·W₁. -/
def sweep2 (U : Fin 10000 → Fin 256 → EReal) : Fin 10000 → Fin 256 → EReal :=
  fun p q => mm A U p q + mm X (W 1) p q

/-- The last sweep: (A·U + X·W₀) + b. -/
def sweep3 (U : Fin 10000 → Fin 256 → EReal) : Fin 10000 → Fin 256 → EReal :=
  fun p q => (mm A U p q + mm X (W 0) p q) + b q

theorem hop2_eq_sweep2 : hop2 X A W = sweep2 X A W (hop1 X A W) := rfl

theorem kernelOut_eq_sweep3 : kernelOut X A W b = sweep3 X A W b (sweep2 X A W (hop1 X A W)) := rfl

end Cert.Spec

end
-- ==== Proof.Value1.lean ====
/-
  What the second kernel leaves in its output array, entry by entry, at the ideal instance.

  The region walks 50 points.  At a point t of the first phase (t < 25) the body stores rows
  [400·t, 400·t + 400) of the second sweep  A·U₁ + X·W₁  (U₁ the first sweep's result) into its scratch; the
  whole scratch after the phase is named hop2fun.  At a point t of the second phase (t ≥ 25) it stores
  rows [400·(t − 25), 400·(t − 25) + 400) of  (A·hop₂ + X·W₀) + b  into the output window, and only these
  points write the window back.

  Read at an index: each input window's block is its array read at block index × block size + the local
  coordinate, the block index decided once over the grid; so the panel of A at point t is rows
  400·(t mod 25) … of A, the other windows are their whole arrays, and the body's own row slice of X starts
  at row 400·(t mod 25).  With the two stored values read at an index (sums of products over the
  contraction index), hop2fun at (p, q) is the second sweep at (p, q)  (row p is row p mod 400 of the panel
  stored at point p / 400), and the block stored at a second-phase point is its block of the third sweep
  of the second.  Row p of the output lies in the block written back at point 25 + p / 400, so the written
  blocks cover the array and the array ends holding that function.
-/
import proofs.«118664_g34883724378360_cont_8to1_b_1789_21_alg».proof.Proof.Region1
import proofs.«118664_g34883724378360_cont_8to1_b_1789_21_alg».proof.Proof.Payloads1
import proofs.«118664_g34883724378360_cont_8to1_b_1789_21_alg».proof.Proof.SpecSweeps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable {F : FTy → Type} [FloatOps F]

-- the TensorCore's buffer contents when the region is entered
variable (V : (c : Dev nD) → (b : Ref sig .tc) → Buf (Elt F) ((c : Thread nD τ).loc b))

/-! ## The grid's index maps, decided once -/

/-- The printed index maps and the grid's second coordinate, decided over the grid: window 0 (the adjacency
    panel) is at block row t mod 25, the whole-array windows at block 0, the output window at block row
    t − 25 in the second phase and 0 before; the grid's second coordinate at point t is t mod 25. -/
theorem idx_facts1 : ∀ t : Fin cfg1.N,
    win1_0.index t (0 : Fin 2) = t.val % 25 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = (if 25 ≤ t.val then t.val - 25 else 0) ∧ win1_5.index t (1 : Fin 2) = 0
    ∧ (grid1.coords t (1 : Fin 2)).val = t.val % 25 :=
  (by decide +kernel : ∀ t : Fin grid1.N, _)

/-- The output window is written back exactly at the second phase's points. -/
theorem flush1_5 : ∀ t : Fin cfg1.N, (cfg1.win 5).flush t = true ↔ 25 ≤ t.val :=
  (by decide +kernel : ∀ t : Fin grid1.N, win1_5.flush t = true ↔ 25 ≤ t.val)

theorem point_lt (t : Fin cfg1.N) : t.val < 50 := lt_of_lt_of_eq t.isLt N_1

theorem hz2 : (![0, 0] : Fin 2 → Nat) = fun _ => 0 := funext fun a => by fin_cases a <;> rfl

/-! ## Each input window's block, read off its array -/

/-- The adjacency panel at point t is rows 400·(t mod 25) … of the adjacency matrix. -/
theorem iblk1_0_apply (c : Dev nD) (t : Fin cfg1.N) (x : S400x10000.Idx) (k : S10000x10000.Idx)
    (hk0 : (k 0).val = 400 * (t.val % 25) + (x 0).val) (hk1 : (k 1).val = (x 1).val) :
    (iblk1 V c 0 t : Vec F S400x10000 .bf16) x = (V c main_v4_1 : S10000x10000.Idx → Elt F .bf16) k := by
  obtain ⟨e0, e1, -⟩ := idx_facts1 t
  unfold iblk1
  rw [View.read_apply]
  show V c main_v4_1 _ = V c main_v4_1 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The first hop's window is the whole first hop. -/
theorem iblk1_1_apply (c : Dev nD) (t : Fin cfg1.N) (x : S10000x256.Idx) :
    (iblk1 V c 1 t : Vec F S10000x256 .bf16) x = (V c main_v4_0 : S10000x256.Idx → Elt F .bf16) x := by
  obtain ⟨-, -, e0, e1, -⟩ := idx_facts1 t
  unfold iblk1
  rw [View.read_apply]
  show V c main_v4_0 _ = V c main_v4_0 _
  congr 1
  funext a
  apply Fin.ext
  match a with
  | ⟨0, _⟩ => show win1_1.index t 0 * 10000 + 1 * (x 0).val = (x 0).val; rw [e0]; omega
  | ⟨1, _⟩ => show win1_1.index t 1 * 256 + 1 * (x 1).val = (x 1).val; rw [e1]; omega

/-- The feature window is the whole feature matrix. -/
theorem iblk1_2_apply (c : Dev nD) (t : Fin cfg1.N) (x : S10000x256.Idx) :
    (iblk1 V c 2 t : Vec F S10000x256 .bf16) x = (V c main_v0 : S10000x256.Idx → Elt F .bf16) x := by
  obtain ⟨-, -, -, -, e0, e1, -⟩ := idx_facts1 t
  unfold iblk1
  rw [View.read_apply]
  show V c main_v0 _ = V c main_v0 _
  congr 1
  funext a
  apply Fin.ext
  match a with
  | ⟨0, _⟩ => show win1_2.index t 0 * 10000 + 1 * (x 0).val = (x 0).val; rw [e0]; omega
  | ⟨1, _⟩ => show win1_2.index t 1 * 256 + 1 * (x 1).val = (x 1).val; rw [e1]; omega

/-- The weight window is the whole weight tensor. -/
theorem iblk1_3_apply (c : Dev nD) (t : Fin cfg1.N) (x : S4x256x256.Idx) :
    (iblk1 V c 3 t : Vec F S4x256x256 .bf16) x = (V c main_v2 : S4x256x256.Idx → Elt F .bf16) x := by
  obtain ⟨-, -, -, -, -, -, e0, e1, e2, -⟩ := idx_facts1 t
  unfold iblk1
  rw [View.read_apply]
  show V c main_v2 _ = V c main_v2 _
  congr 1
  funext a
  apply Fin.ext
  match a with
  | ⟨0, _⟩ => show win1_3.index t 0 * 4 + 1 * (x 0).val = (x 0).val; rw [e0]; omega
  | ⟨1, _⟩ => show win1_3.index t 1 * 256 + 1 * (x 1).val = (x 1).val; rw [e1]; omega
  | ⟨2, _⟩ => show win1_3.index t 2 * 256 + 1 * (x 2).val = (x 2).val; rw [e2]; omega

/-- The bias window is the whole bias row. -/
theorem iblk1_4_apply (c : Dev nD) (t : Fin cfg1.N) (x : S1x256.Idx) :
    (iblk1 V c 4 t : Vec F S1x256 .f32) x = (V c main_v3 : S1x256.Idx → Elt F .f32) x := by
  obtain ⟨-, -, -, -, -, -, -, -, -, e0, e1, -⟩ := idx_facts1 t
  unfold iblk1
  rw [View.read_apply]
  show V c main_v3 _ = V c main_v3 _
  congr 1
  funext a
  apply Fin.ext
  match a with
  | ⟨0, _⟩ => show win1_4.index t 0 * 1 + 1 * (x 0).val = (x 0).val; rw [e0]; omega
  | ⟨1, _⟩ => show win1_4.index t 1 * 256 + 1 * (x 1).val = (x 1).val; rw [e1]; omega

/-! ## At the ideal instance: the arrays as matrices, the loads, the two stored values -/

section AtIdeal

variable (V : (c : Dev nD) → (b : Ref sig .tc) → Buf (Elt Ideal) ((c : Thread nD τ).loc b))

/-- The arrays the region finds, as matrices over the extended reals: the features, the adjacency matrix,
    the first sweep's result, the four weight blocks and the bias. -/
abbrev Xm (c : Dev nD) : Fin 10000 → Fin 256 → EReal :=
  fun p j => (V c main_v0 : S10000x256.Idx → Elt Ideal .bf16) (ix2 p j)
abbrev Am (c : Dev nD) : Fin 10000 → Fin 10000 → EReal :=
  fun p k => (V c main_v4_1 : S10000x10000.Idx → Elt Ideal .bf16) (ix2 p k)
abbrev U1m (c : Dev nD) : Fin 10000 → Fin 256 → EReal :=
  fun l q => (V c main_v4_0 : S10000x256.Idx → Elt Ideal .bf16) (ix2 l q)
abbrev Wm (c : Dev nD) : Fin 4 → Fin 256 → Fin 256 → EReal :=
  fun s j q => (V c main_v2 : S4x256x256.Idx → Elt Ideal .bf16) (ix3 s j q)
abbrev bm (c : Dev nD) : Fin 256 → EReal :=
  fun q => (V c main_v3 : S1x256.Idx → Elt Ideal .f32) (ix2 (0 : Fin 1) q)

/-- Row r of the adjacency panel at point t is row 400·(t mod 25) + r of the adjacency matrix. -/
theorem ldA_apply (c : Dev nD) (t : Fin cfg1.N) (r : Fin 400) (k : Fin 10000) (P : Fin 10000)
    (hP : P.val = 400 * (t.val % 25) + r.val) :
    View.ld (iblk1 V c 0 t) rA1 (ix2 r k) = Am V c P k :=
  iblk1_0_apply V c t (rA1.idx (ix2 r k)) (ix2 P k)
    (by show P.val = 400 * (t.val % 25) + (0 + 1 * r.val); omega) (by show k.val = 0 + 1 * k.val; omega)

/-- The first hop's window, loaded whole, is the first sweep's result. -/
theorem ldU_apply (c : Dev nD) (t : Fin cfg1.N) (k : Fin 10000) (q : Fin 256) :
    View.ld (iblk1 V c 1 t) rM1 (ix2 k q) = U1m V c k q :=
  (congrFun (View.ld_unit_zero (S := S10000x256) hz2 _ (iblk1 V c 1 t)) (ix2 k q)).trans
    (iblk1_1_apply V c t (ix2 k q))

/-- Row r of the panel's rows of the feature window is row 400·(t mod 25) + r of the features. -/
theorem ldX_apply (c : Dev nD) (t : Fin cfg1.N) (r : Fin 400) (j : Fin 256) (P : Fin 10000)
    (hP : P.val = 400 * (t.val % 25) + r.val) :
    View.ld (iblk1 V c 2 t) (rXrow1 (grid1.coords t)) (ix2 r j) = Xm V c P j := by
  obtain ⟨-, -, -, -, -, -, -, -, -, -, -, -, -, eg⟩ := idx_facts1 t
  refine (iblk1_2_apply V c t _).trans ?_
  show (V c main_v0 : S10000x256.Idx → Elt Ideal .bf16) _ = (V c main_v0 : S10000x256.Idx → Elt Ideal .bf16) (ix2 P j)
  congr 1
  funext a
  apply Fin.ext
  match a with
  | ⟨0, _⟩ =>
    show k1_off1 (grid1.coords t) 0 + 1 * r.val = P.val
    rw [k1_off1_eq]
    show 400 * (grid1.coords t 1).val + 1 * r.val = P.val
    rw [eg, hP]; omega
  | ⟨1, _⟩ =>
    show k1_off1 (grid1.coords t) 1 + 1 * j.val = j.val
    rw [k1_off1_eq]
    show 0 + 1 * j.val = j.val
    omega

/-- Slab 1 of the weight window is the weight block 1. -/
theorem ldW1_apply (c : Dev nD) (t : Fin cfg1.N) (j q : Fin 256) :
    View.ld (iblk1 V c 3 t) rW1_1 (ix3 (0 : Fin 1) j q) = Wm V c 1 j q := by
  refine (iblk1_3_apply V c t _).trans ?_
  show (V c main_v2 : S4x256x256.Idx → Elt Ideal .bf16) _ = (V c main_v2 : S4x256x256.Idx → Elt Ideal .bf16) (ix3 (1 : Fin 4) j q)
  congr 1
  funext a
  apply Fin.ext
  match a with
  | ⟨0, _⟩ => show 1 + 1 * 0 = 1; rfl
  | ⟨1, _⟩ => show 0 + 1 * j.val = j.val; omega
  | ⟨2, _⟩ => show 0 + 1 * q.val = q.val; omega

/-- Slab 0 of the weight window is the weight block 0. -/
theorem ldW0_apply (c : Dev nD) (t : Fin cfg1.N) (j q : Fin 256) :
    View.ld (iblk1 V c 3 t) rW1_0 (ix3 (0 : Fin 1) j q) = Wm V c 0 j q := by
  refine (iblk1_3_apply V c t _).trans ?_
  show (V c main_v2 : S4x256x256.Idx → Elt Ideal .bf16) _ = (V c main_v2 : S4x256x256.Idx → Elt Ideal .bf16) (ix3 (0 : Fin 4) j q)
  congr 1
  funext a
  apply Fin.ext
  match a with
  | ⟨0, _⟩ => show 0 + 1 * 0 = 0; rfl
  | ⟨1, _⟩ => show 0 + 1 * j.val = j.val; omega
  | ⟨2, _⟩ => show 0 + 1 * q.val = q.val; omega

/-- The bias window, loaded whole, is the bias row. -/
theorem ldB_apply (c : Dev nD) (t : Fin cfg1.N) (q : Fin 256) :
    View.ld (iblk1 V c 4 t) rB1 (ix2 (0 : Fin 1) q) = bm V c q :=
  (congrFun (View.ld_unit_zero (S := S1x256) hz2 _ (iblk1 V c 4 t)) (ix2 (0 : Fin 1) q)).trans
    (iblk1_4_apply V c t (ix2 (0 : Fin 1) q))

/-- What a first-phase point stores, at (r, q): entry (400·t + r, q) of the second sweep A·U₁ + X·W₁. -/
theorem payA_apply (c : Dev nD) (t : Fin cfg1.N) (ht : t.val < 25) (r : Fin 400) (q : Fin 256) (P : Fin 10000)
    (hP : P.val = 400 * t.val + r.val) :
    payA V c t (ix2 r q) = Cert.Spec.sweep2 (Xm V c) (Am V c) (Wm V c) (U1m V c) P q := by
  have hP' : P.val = 400 * (t.val % 25) + r.val := by omega
  unfold payA
  refine (pay2_apply _ _ _ _ r q).trans ?_
  show _ = (∑ k, Am V c P k * U1m V c k q) + (∑ j, Xm V c P j * Wm V c 1 j q)
  refine congrArg₂ (· + ·) (Finset.sum_congr rfl fun k _ => ?_) (Finset.sum_congr rfl fun j _ => ?_)
  · exact congrArg₂ (· * ·) (ldA_apply V c t r k P hP') (ldU_apply V c t k q)
  · exact congrArg₂ (· * ·) (ldX_apply V c t r j P hP') (ldW1_apply V c t j q)

/-- The second hop, entry by entry, is the second sweep of the arrays the region finds. -/
theorem hop2fun_apply (c : Dev nD) (p : Fin 10000) (q : Fin 256) :
    hop2fun V c (ix2 p q) = Cert.Spec.sweep2 (Xm V c) (Am V c) (Wm V c) (U1m V c) p q := by
  have hp := p.isLt
  show payA V c ⟨p.val / 400, _⟩ (ix2 (⟨p.val % 400, _⟩ : Fin 400) (⟨q.val, _⟩ : Fin 256)) = _
  exact payA_apply V c ⟨p.val / 400, _⟩ (by show p.val / 400 < 25; omega) ⟨p.val % 400, _⟩ q p
    (by show p.val = 400 * (p.val / 400) + p.val % 400; omega)

end AtIdeal

/-! ## The output window: what a second-phase point stores, the write-backs, the cover, the final array -/

section Output

variable (V : (c : Dev nD) → (b : Ref sig .tc) → Buf (Elt Ideal) ((c : Thread nD τ).loc b))

/-- The output array's final contents: the third sweep applied to the second, entry by entry. -/
def G1 (c : Dev nD) : S10000x256.Idx → EReal := fun i =>
  Cert.Spec.sweep3 (Xm V c) (Am V c) (Wm V c) (bm V c)
    (Cert.Spec.sweep2 (Xm V c) (Am V c) (Wm V c) (U1m V c)) ⟨(i 0).val, idx2_lt0 i⟩ ⟨(i 1).val, idx2_lt1 i⟩

/-- What a second-phase point t stores, at (r, q): entry (400·(t − 25) + r, q) of
    (A·hop₂ + X·W₀) + b, hop₂ the second sweep. -/
theorem out1_5_apply (c : Dev nD) (t : Fin cfg1.N) (ht : 25 ≤ t.val) (r : Fin 400) (q : Fin 256) (P : Fin 10000)
    (hP : P.val = 400 * (t.val - 25) + r.val) :
    out1_5 V c t (ix2 r q) = Cert.Spec.sweep3 (Xm V c) (Am V c) (Wm V c) (bm V c)
      (Cert.Spec.sweep2 (Xm V c) (Am V c) (Wm V c) (U1m V c)) P q := by
  have ht50 := point_lt t
  have hP' : P.val = 400 * (t.val % 25) + r.val := by omega
  unfold out1_5
  rw [View.canon_unit_zero hz2]
  refine (pay3_apply _ _ _ _ _ r q).trans ?_
  show _ = ((∑ k, Am V c P k * Cert.Spec.sweep2 (Xm V c) (Am V c) (Wm V c) (U1m V c) k q)
      + (∑ j, Xm V c P j * Wm V c 0 j q)) + bm V c q
  refine congrArg₂ (· + ·) (congrArg₂ (· + ·) (Finset.sum_congr rfl fun k _ => ?_)
    (Finset.sum_congr rfl fun j _ => ?_)) (ldB_apply V c t q)
  · exact congrArg₂ (· * ·) (ldA_apply V c t r k P hP')
      ((congrFun (View.ld_unit_zero (S := S10000x256) hz2 _ (hop2fun V c)) (ix2 k q)).trans (hop2fun_apply V c k q))
  · exact congrArg₂ (· * ·) (ldX_apply V c t r j P hP') (ldW0_apply V c t j q)

/-- The same at any index of the block and any index of the array whose coordinates correspond. -/
theorem out1_5_eq_G1 (c : Dev nD) (t : Fin cfg1.N) (ht : 25 ≤ t.val) (y : S400x256.Idx) (i : S10000x256.Idx)
    (hi0 : (i 0).val = 400 * (t.val - 25) + (y 0).val) (hi1 : (i 1).val = (y 1).val) :
    out1_5 V c t y = G1 V c i := by
  obtain ⟨r, q, rfl⟩ : ∃ (r : Fin 400) (q : Fin 256), y = ix2 r q := ⟨y 0, y 1, eq_ix2 y⟩
  refine (out1_5_apply V c t ht r q ⟨(i 0).val, idx2_lt0 i⟩ hi0).trans ?_
  exact congrArg (fun z => Cert.Spec.sweep3 (Xm V c) (Am V c) (Wm V c) (bm V c)
    (Cert.Spec.sweep2 (Xm V c) (Am V c) (Wm V c) (U1m V c)) ⟨(i 0).val, idx2_lt0 i⟩ z) (Fin.ext hi1.symm)

/-- What a second-phase point writes back is its block of the final contents. -/
theorem flushed1_5_eq (c : Dev nD) (t : Fin cfg1.N) (hf : (cfg1.win 5).flush t = true) :
    (dat1 V c).flushed 5 t = ((cfg1.win 5).blk t).view.read (Elt Ideal) (G1 V c) := by
  have ht : 25 ≤ t.val := (flush1_5 t).mp hf
  obtain ⟨-, -, -, -, -, -, -, -, -, -, -, e0, e1, -⟩ := idx_facts1 t
  show (cfg1.win 5).cut (grid1.coords t) ((dat1 V c).after 5 t) = _
  rw [after1_5]
  funext j
  show out1_5 V c t j = G1 V c (((cfg1.win 5).blk t).view.emb j)
  refine out1_5_eq_G1 V c t ht j _ ?_ ?_
  · show win1_5.index t (0 : Fin 2) * 400 + 1 * (j 0).val = 400 * (t.val - 25) + (j 0).val
    rw [e0, if_pos ht]; omega
  · show win1_5.index t (1 : Fin 2) * 256 + 1 * (j 1).val = (j 1).val
    rw [e1]; omega

/-- An index of the output array is in point t's block iff each coordinate is in the block's range. -/
theorem mem_blk1_5 (t : Fin cfg1.N) (i : S10000x256.Idx) :
    i ∈ ((cfg1.win 5).blk t).view.set ↔ ∀ a : Fin 2, win1_5.index t a * S400x256.size a ≤ (i a).val
      ∧ (i a).val < win1_5.index t a * S400x256.size a + S400x256.size a := by
  show i ∈ ((View.whole main_v5).slice (win1_5.rect t)).set ↔ _
  rw [View.set_slice_whole, Rect.mem_set_unit]
  exact Iff.rfl

/-- Row p of the output lies in the block written back at point 25 + p / 400. -/
theorem cover1_5_arr (i : S10000x256.Idx) :
    ∃ t : Fin cfg1.N, (cfg1.win 5).flush t = true ∧ i ∈ ((cfg1.win 5).blk t).view.set := by
  have h0 : (i 0).val < 10000 := idx2_lt0 i
  have h1 : (i 1).val < 256 := idx2_lt1 i
  obtain ⟨t, ht⟩ : ∃ t : Fin cfg1.N, t.val = 25 + (i 0).val / 400 :=
    ⟨⟨25 + (i 0).val / 400, by rw [show cfg1.N = 50 from N_1]; omega⟩, rfl⟩
  obtain ⟨-, -, -, -, -, -, -, -, -, -, -, e0, e1, -⟩ := idx_facts1 t
  have ht25 : 25 ≤ t.val := by omega
  refine ⟨t, (flush1_5 t).mpr ht25, ?_⟩
  rw [mem_blk1_5]
  intro a
  match a with
  | ⟨0, _⟩ =>
    show win1_5.index t (0 : Fin 2) * 400 ≤ (i 0).val ∧ (i 0).val < win1_5.index t (0 : Fin 2) * 400 + 400
    rw [e0, if_pos ht25]; omega
  | ⟨1, _⟩ =>
    show win1_5.index t (1 : Fin 2) * 256 ≤ (i 1).val ∧ (i 1).val < win1_5.index t (1 : Fin 2) * 256 + 256
    rw [e1]; omega

/-- The output array after the region's 50 points holds the final contents. -/
theorem final1_5 (c : Dev nD) : (dat1 V c).arrAt 5 cfg1.N = G1 V c :=
  (dat1 V c).arrAt_eq_of_cover 5 (G1 V c) (fun t hf => flushed1_5_eq V c t hf) (fun i => cover1_5_arr i)

/-- Entry (p, q) of the output array after the region: the third sweep of the second sweep of the arrays
    the region finds. -/
theorem arr1_5 (c : Dev nD) (p : Fin 10000) (q : Fin 256) :
    (dat1 V c).arrAt 5 cfg1.N (ix2 p q) = Cert.Spec.sweep3 (Xm V c) (Am V c) (Wm V c) (bm V c)
      (Cert.Spec.sweep2 (Xm V c) (Am V c) (Wm V c) (U1m V c)) p q :=
  congrFun (final1_5 V c) (ix2 p q)

end Output

end Cert.KernelIdeal.Hand

end
-- ==== Proof.HostValues.lean ====
/-
  What the kernel program's buffers hold after the host operations that precede its two kernel
  regions, read at an index.

  The four host operations narrow X to bf16, regroup the 1024 × 256 weight matrix as four
  256 × 256 blocks, narrow the blocks to bf16, and regroup the bias as a one-row matrix.  Over the
  extended reals a change of float format is the identity, and a regrouping keeps the row-major
  position: block s, row j, column q of the regrouped weights is row 256·s + j, column q of the
  weight matrix, and entry (0, q) of the one-row bias is entry q of the bias.  No host operation
  writes an argument array.
-/
import proofs.«118664_g34883724378360_cont_8to1_b_1789_21_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem

/-! ### No host operation writes an argument array -/

section Generic

variable {F : FTy → Type} [FloatOps F] (Wl : Valuation τ sig (Elt F))

theorem host_arg0 : StableHlo.after hostOps0 Wl (Proc.devRef .tc main_arg0) = Wl (Proc.devRef .tc main_arg0) :=
  StableHlo.after_of_writes_sub hostOps0 _ hostOps0_writes (by decide)
theorem host_arg1 : StableHlo.after hostOps0 Wl (Proc.devRef .tc main_arg1) = Wl (Proc.devRef .tc main_arg1) :=
  StableHlo.after_of_writes_sub hostOps0 _ hostOps0_writes (by decide)
theorem host_arg2 : StableHlo.after hostOps0 Wl (Proc.devRef .tc main_arg2) = Wl (Proc.devRef .tc main_arg2) :=
  StableHlo.after_of_writes_sub hostOps0 _ hostOps0_writes (by decide)
theorem host_arg3 : StableHlo.after hostOps0 Wl (Proc.devRef .tc main_arg3) = Wl (Proc.devRef .tc main_arg3) :=
  StableHlo.after_of_writes_sub hostOps0 _ hostOps0_writes (by decide)

end Generic

/-! ### The written arrays over the extended reals -/

section AtIdeal

variable (Wl : Valuation τ sig (Elt Ideal))

/-- X narrowed to bf16 is X. -/
theorem host_v0 (p : Fin 10000) (j : Fin 256) :
    (StableHlo.after (hostOps0 (F := Ideal)) Wl (Proc.devRef .tc main_v0) : S10000x256.Idx → EReal) (ValueIdx.ix2 p j)
      = (Wl (Proc.devRef .tc main_arg0) : S10000x256.Idx → EReal) (ValueIdx.ix2 p j) := by
  have e : (StableHlo.after (hostOps0 (F := Ideal)) Wl (Proc.devRef .tc main_v0) : S10000x256.Idx → EReal)
      = (truncf (F := Ideal) (s := S10000x256) (φ := .f32) .bf16 (Wl (Proc.devRef .tc main_arg0)) bitsLt_bf16_f32 : S10000x256.Idx → EReal) := by
    dsimp only [hostOps0]; after_results
  rw [e]
  rfl

/-- The weights regrouped as four blocks and narrowed to bf16: block s, row j, column q is row 256·s + j, column q. -/
theorem host_v2 (s : Fin 4) (j : Fin 256) (q : Fin 256) :
    (StableHlo.after (hostOps0 (F := Ideal)) Wl (Proc.devRef .tc main_v2) : S4x256x256.Idx → EReal) (ValueIdx.ix3 s j q)
      = (Wl (Proc.devRef .tc main_arg2) : S1024x256.Idx → EReal)
          (ValueIdx.ix2 ⟨256 * s.val + j.val, by have := s.isLt; have := j.isLt; omega⟩ q) := by
  have e : (StableHlo.after (hostOps0 (F := Ideal)) Wl (Proc.devRef .tc main_v2) : S4x256x256.Idx → EReal)
      = (truncf (F := Ideal) (s := S4x256x256) (φ := .f32) .bf16 (shapeCast (s := S1024x256) S4x256x256 (Wl (Proc.devRef .tc main_arg2))
          shapeCasts_S1024x256_S4x256x256) bitsLt_bf16_f32 : S4x256x256.Idx → EReal) := by
    dsimp only [hostOps0]; after_results; rfl
  rw [e]
  show shapeCast (s := S1024x256) S4x256x256 (Wl (Proc.devRef .tc main_arg2)) shapeCasts_S1024x256_S4x256x256 (ValueIdx.ix3 s j q) = _
  refine shapeCast_apply (s := S1024x256) (t := S4x256x256) _ _ _ _ ?_
  rw [Shape.rowMajor_val_two, Shape.rowMajor_val_three]
  show (256 * s.val + j.val) * 256 + q.val = (s.val * 256 + j.val) * 256 + q.val
  omega

/-- The bias regrouped as a one-row matrix: entry (0, q) is entry q. -/
theorem host_v3 (q : Fin 256) :
    (StableHlo.after (hostOps0 (F := Ideal)) Wl (Proc.devRef .tc main_v3) : S1x256.Idx → EReal) (ValueIdx.ix2 (0 : Fin 1) q)
      = (Wl (Proc.devRef .tc main_arg3) : S256.Idx → EReal) (ValueIdx.ix1 q) := by
  have e : (StableHlo.after (hostOps0 (F := Ideal)) Wl (Proc.devRef .tc main_v3) : S1x256.Idx → EReal)
      = (shapeCast (s := S256) S1x256 (Wl (Proc.devRef .tc main_arg3)) shapeCasts_S256_S1x256 : S1x256.Idx → EReal) := by
    dsimp only [hostOps0]; after_results; rfl
  rw [e]
  refine shapeCast_apply (s := S256) (t := S1x256) _ _ _ _ ?_
  rw [Shape.rowMajor_val_one, Shape.rowMajor_val_two]
  show q.val = 0 * 256 + q.val
  omega

end AtIdeal

end Cert.KernelIdeal.Hand

end
-- ==== Proof.RefIsSpec.lean ====
/-
  The reference program's result, read at an index, is the specification's `referenceOut` of the
  argument arrays.

  The program forms A·X, A·(A·X), A·(A·(A·X)) by three matrix products, lays X and the three
  products side by side along the column axis into a 10000 × 1024 matrix, multiplies by the
  1024 × 256 weight matrix and adds the bias row to every row.  Each product read at (p, j) is the
  sum over k of A p k times the previous matrix at (k, j); a column r of the joined matrix lies in
  piece r / 256 at column r − 256·(r / 256).
-/
import proofs.«118664_g34883724378360_cont_8to1_b_1789_21_alg».proof.Proof.Gen.ReferenceIdeal.Read
import proofs.«118664_g34883724378360_cont_8to1_b_1789_21_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo
open Cert.ReferenceIdeal.Read
open BigOperators

section Pieces

variable (x0 : (⟨S10000x256, .f32⟩ : BufTy).Contents (Elt Ideal)) (x1 : (⟨S10000x10000, .f32⟩ : BufTy).Contents (Elt Ideal))

/-- The argument X as a function of its two coordinates. -/
abbrev matX : Fin 10000 → Fin 256 → EReal := fun p j => x0 (ValueIdx.ix2 p j)
/-- The argument A as a function of its two coordinates. -/
abbrev matA : Fin 10000 → Fin 10000 → EReal := fun p k => x1 (ValueIdx.ix2 p k)

/-! ### The index functions of a product A·Z at (p, j): row p of A at column k, row k of Z at column j -/

theorem lidx_v0 (p : Fin 10000) (j : Fin 256) (k : Fin 10000) :
    lidx_main_v0 (ValueIdx.ix2 p j) k = ValueIdx.ix2 p k :=
  funext fun a => Fin.ext (by match a with | ⟨0, _⟩ => rfl | ⟨1, _⟩ => rfl)
theorem ridx_v0 (p : Fin 10000) (j : Fin 256) (k : Fin 10000) :
    ridx_main_v0 (ValueIdx.ix2 p j) k = ValueIdx.ix2 k j :=
  funext fun a => Fin.ext (by match a with | ⟨0, _⟩ => rfl | ⟨1, _⟩ => rfl)
theorem lidx_v1 (p : Fin 10000) (j : Fin 256) (k : Fin 10000) :
    lidx_main_v1 (ValueIdx.ix2 p j) k = ValueIdx.ix2 p k :=
  funext fun a => Fin.ext (by match a with | ⟨0, _⟩ => rfl | ⟨1, _⟩ => rfl)
theorem ridx_v1 (p : Fin 10000) (j : Fin 256) (k : Fin 10000) :
    ridx_main_v1 (ValueIdx.ix2 p j) k = ValueIdx.ix2 k j :=
  funext fun a => Fin.ext (by match a with | ⟨0, _⟩ => rfl | ⟨1, _⟩ => rfl)
theorem lidx_v2 (p : Fin 10000) (j : Fin 256) (k : Fin 10000) :
    lidx_main_v2 (ValueIdx.ix2 p j) k = ValueIdx.ix2 p k :=
  funext fun a => Fin.ext (by match a with | ⟨0, _⟩ => rfl | ⟨1, _⟩ => rfl)
theorem ridx_v2 (p : Fin 10000) (j : Fin 256) (k : Fin 10000) :
    ridx_main_v2 (ValueIdx.ix2 p j) k = ValueIdx.ix2 k j :=
  funext fun a => Fin.ext (by match a with | ⟨0, _⟩ => rfl | ⟨1, _⟩ => rfl)
theorem lidx_v4 (p : Fin 10000) (q : Fin 256) (k : Fin 1024) :
    lidx_main_v4 (ValueIdx.ix2 p q) k = ValueIdx.ix2 p k :=
  funext fun a => Fin.ext (by match a with | ⟨0, _⟩ => rfl | ⟨1, _⟩ => rfl)
theorem ridx_v4 (p : Fin 10000) (q : Fin 256) (k : Fin 1024) :
    ridx_main_v4 (ValueIdx.ix2 p q) k = ValueIdx.ix2 k q :=
  funext fun a => Fin.ext (by match a with | ⟨0, _⟩ => rfl | ⟨1, _⟩ => rfl)
/-- The bias row broadcast to every row: entry (p, q) reads entry q of the bias. -/
theorem idx_v56 (p : Fin 10000) (q : Fin 256) :
    idx_main_v5 (idx_main_v6 (ValueIdx.ix2 p q)) = ValueIdx.ix1 q :=
  funext fun a => Fin.ext (by match a with | ⟨0, _⟩ => rfl)

/-! ### The three products -/

/-- A·X at (p, j). -/
theorem v0_eq_pow1 (p : Fin 10000) (j : Fin 256) :
    val_main_v0 (F := Ideal) x0 x1 (ValueIdx.ix2 p j) = Cert.Spec.pow1 (matX x0) (matA x1) p j := by
  rw [val_main_v0_apply]
  unfold Cert.Spec.pow1 Cert.Spec.mm
  refine Finset.sum_congr rfl fun k _ => ?_
  rw [lidx_v0, ridx_v0]

/-- A·(A·X) at (p, j). -/
theorem v1_eq_pow2 (p : Fin 10000) (j : Fin 256) :
    val_main_v1 (F := Ideal) x0 x1 (ValueIdx.ix2 p j) = Cert.Spec.pow2 (matX x0) (matA x1) p j := by
  rw [val_main_v1_apply]
  unfold Cert.Spec.pow2 Cert.Spec.mm
  refine Finset.sum_congr rfl fun k _ => ?_
  rw [lidx_v1, ridx_v1, v0_eq_pow1]

/-- A·(A·(A·X)) at (p, j). -/
theorem v2_eq_pow3 (p : Fin 10000) (j : Fin 256) :
    val_main_v2 (F := Ideal) x0 x1 (ValueIdx.ix2 p j) = Cert.Spec.pow3 (matX x0) (matA x1) p j := by
  rw [val_main_v2_apply]
  unfold Cert.Spec.pow3 Cert.Spec.mm
  refine Finset.sum_congr rfl fun k _ => ?_
  rw [lidx_v2, ridx_v2, v1_eq_pow2]

/-! ### The four matrices side by side -/

/-- Off the joined axis the piece's index has the joined index's coordinate. -/
private theorem off_axis (p : Fin 10000) (r : Fin 1024) (c : Fin 256) :
    ∀ b : Fin S10000x256.rank, b.cast (rfl : S10000x256.rank = S10000x1024.rank) ≠ (1 : Fin S10000x1024.rank) →
      ((ValueIdx.ix2 p c : S10000x256.Idx) b).val = ((ValueIdx.ix2 p r : S10000x1024.Idx) (b.cast rfl)).val := by
  intro b hb
  match b, hb with
  | ⟨0, _⟩, _ => rfl
  | ⟨1, _⟩, hb => exact absurd (Fin.ext rfl) hb

/-- The joined matrix at (p, r): column r lies in piece r / 256, at column r less the widths before it. -/
theorem v3_eq_stacked (p : Fin 10000) (r : Fin 1024) :
    val_main_v3 (F := Ideal) x0 x1 (ValueIdx.ix2 p r) = Cert.Spec.stacked (matX x0) (matA x1) p r := by
  unfold val_main_v3 Cert.Spec.stacked
  by_cases h0 : r.val < 256
  · rw [dif_pos h0]
    exact concatenate_apply_piece (1 : Fin S10000x1024.rank) _ _ (ValueIdx.ix2 p r) 0 (by exact Nat.lt_of_sub_eq_succ rfl) S10000x256 x0 rfl rfl 0 rfl
      (ValueIdx.ix2 p ⟨r.val, h0⟩) (off_axis p r _) (by show 0 + r.val = r.val; omega)
  · rw [dif_neg h0]
    by_cases h1 : r.val < 512
    · rw [dif_pos h1]
      refine (concatenate_apply_piece (1 : Fin S10000x1024.rank) _ _ (ValueIdx.ix2 p r) 1 (by exact Nat.lt_of_sub_eq_succ rfl) S10000x256
        (val_main_v0 (F := Ideal) x0 x1) rfl rfl 256 rfl
        (ValueIdx.ix2 p ⟨r.val - 256, by omega⟩) (off_axis p r _) (by show 256 + (r.val - 256) = r.val; omega)).trans ?_
      exact v0_eq_pow1 x0 x1 p _
    · rw [dif_neg h1]
      by_cases h2 : r.val < 768
      · rw [dif_pos h2]
        refine (concatenate_apply_piece (1 : Fin S10000x1024.rank) _ _ (ValueIdx.ix2 p r) 2 (by exact Nat.lt_of_sub_eq_succ rfl) S10000x256
          (val_main_v1 (F := Ideal) x0 x1) rfl rfl 512 rfl
          (ValueIdx.ix2 p ⟨r.val - 512, by omega⟩) (off_axis p r _) (by show 512 + (r.val - 512) = r.val; omega)).trans ?_
        exact v1_eq_pow2 x0 x1 p _
      · rw [dif_neg h2]
        refine (concatenate_apply_piece (1 : Fin S10000x1024.rank) _ _ (ValueIdx.ix2 p r) 3 (by exact Nat.lt_of_sub_eq_succ rfl) S10000x256
          (val_main_v2 (F := Ideal) x0 x1) rfl rfl 768 rfl
          (ValueIdx.ix2 p ⟨r.val - 768, by have := r.isLt; omega⟩) (off_axis p r _)
          (by show 768 + (r.val - 768) = r.val; omega)).trans ?_
        exact v2_eq_pow3 x0 x1 p _

end Pieces

/-! ### The result -/

/-- The reference's result at (p, q) is the joined matrix times the weights, plus the bias. -/
theorem reference_is_spec
    (x0 : (⟨S10000x256, .f32⟩ : BufTy).Contents (Elt Ideal)) (x1 : (⟨S10000x10000, .f32⟩ : BufTy).Contents (Elt Ideal))
    (x2 : (⟨S1024x256, .f32⟩ : BufTy).Contents (Elt Ideal)) (x3 : (⟨S256, .f32⟩ : BufTy).Contents (Elt Ideal))
    (p : Fin 10000) (q : Fin 256) :
    Cert.ReferenceIdeal.Read.val_main_v7 (F := Ideal) x0 x1 x2 x3 (ValueIdx.ix2 p q)
      = Cert.Spec.referenceOut (fun p j => x0 (ValueIdx.ix2 p j)) (fun p k => x1 (ValueIdx.ix2 p k))
          (fun r q => x2 (ValueIdx.ix2 r q)) (fun q => x3 (ValueIdx.ix1 q)) p q := by
  rw [val_main_v7_apply, val_main_v4_apply, val_main_v6_apply, val_main_v5_apply, Ideal.addf_def, idx_v56]
  unfold Cert.Spec.referenceOut Cert.Spec.mm
  congr 1
  refine Finset.sum_congr rfl fun k _ => ?_
  rw [lidx_v4, ridx_v4, v3_eq_stacked]

end Cert.RefSide

end
-- ==== Proof.HornerLaw.lean ====
/-
  The Horner form and the stacked form agree on real entries.

  Write A for the 10000 × 10000 matrix, X for the 10000 × 256 matrix, W₀ … W₃ for the four
  256 × 256 blocks of the weight matrix.  The Horner form is

      A·(A·((A·X)·W₃ + X·W₂) + X·W₁) + X·W₀ + b,

  the stacked form is  [X | A·X | A·(A·X) | A·(A·(A·X))] · W + b.

  Three steps.
  (1) In any additive commutative monoid a sum over 4n indices is the sum of its four blocks of
      n; so the product of the stacked matrix with W is
      X·W₀ + (A·X)·W₁ + (A·(A·X))·W₂ + (A·(A·(A·X)))·W₃.  This needs no finiteness.
  (2) The reals sit inside the extended reals closed under +, · and finite sums, so the product
      of two real matrices, computed in the extended reals, is the real product; hence both
      sides are the images of real matrix expressions.
  (3) Over the reals the two expressions agree, because the matrix product distributes over +
      and is associative.
-/
import proofs.«118664_g34883724378360_cont_8to1_b_1789_21_alg».proof.Proof.Spec
import Mathlib.Data.Matrix.Mul
import Mathlib.Algebra.BigOperators.Fin
import Mathlib.Tactic.Abel

noncomputable section

namespace Cert.Spec

open BigOperators

/-! ### (1) A sum over 4n indices as its four blocks -/

/-- A sum over n + n + n + n indices is the sum of the four blocks of n consecutive indices. -/
theorem sum_four_blocks {M : Type} [AddCommMonoid M] (n : ℕ) (f : Fin (n + n + n + n) → M) :
    ∑ r, f r
      = (∑ j : Fin n, f ⟨j.val, by have := j.isLt; omega⟩)
        + (∑ j : Fin n, f ⟨n + j.val, by have := j.isLt; omega⟩)
        + (∑ j : Fin n, f ⟨n + n + j.val, by have := j.isLt; omega⟩)
        + (∑ j : Fin n, f ⟨n + n + n + j.val, by have := j.isLt; omega⟩) := by
  rw [Fin.sum_univ_add, Fin.sum_univ_add, Fin.sum_univ_add]
  rfl

/-- The entry of the weight matrix in row 256·s + j is the entry of block s in row j. -/
theorem blocks_apply (Wf : Fin 1024 → Fin 256 → EReal) (s : Fin 4) (j : Fin 256) (q : Fin 256)
    (r : Fin 1024) (h : r.val = 256 * s.val + j.val) : Wf r q = blocks Wf s j q := by
  simp only [blocks]
  exact congrArg (fun r => Wf r q) (Fin.ext h)

section Stacked

variable (X : Fin 10000 → Fin 256 → EReal) (A : Fin 10000 → Fin 10000 → EReal)

/-- Columns 0 … 255 of the stacked matrix are X. -/
theorem stacked_block0 (p : Fin 10000) (j : Fin 256) (r : Fin 1024) (h : r.val = j.val) :
    stacked X A p r = X p j := by
  have hj := j.isLt
  unfold stacked
  rw [dif_pos (by omega)]
  exact congrArg (X p) (Fin.ext h)

/-- Columns 256 … 511 of the stacked matrix are A·X. -/
theorem stacked_block1 (p : Fin 10000) (j : Fin 256) (r : Fin 1024) (h : r.val = 256 + j.val) :
    stacked X A p r = pow1 X A p j := by
  have hj := j.isLt
  unfold stacked
  rw [dif_neg (by omega), dif_pos (by omega)]
  exact congrArg (pow1 X A p) (Fin.ext (by show r.val - 256 = j.val; omega))

/-- Columns 512 … 767 of the stacked matrix are A·(A·X). -/
theorem stacked_block2 (p : Fin 10000) (j : Fin 256) (r : Fin 1024) (h : r.val = 512 + j.val) :
    stacked X A p r = pow2 X A p j := by
  have hj := j.isLt
  unfold stacked
  rw [dif_neg (by omega), dif_neg (by omega), dif_pos (by omega)]
  exact congrArg (pow2 X A p) (Fin.ext (by show r.val - 512 = j.val; omega))

/-- Columns 768 … 1023 of the stacked matrix are A·(A·(A·X)). -/
theorem stacked_block3 (p : Fin 10000) (j : Fin 256) (r : Fin 1024) (h : r.val = 768 + j.val) :
    stacked X A p r = pow3 X A p j := by
  have hj := j.isLt
  unfold stacked
  rw [dif_neg (by omega), dif_neg (by omega), dif_neg (by omega)]
  exact congrArg (pow3 X A p) (Fin.ext (by show r.val - 768 = j.val; omega))

/-- The stacked matrix times the weight matrix is the sum of the four block products. -/
theorem mm_stacked (Wf : Fin 1024 → Fin 256 → EReal) (p : Fin 10000) (q : Fin 256) :
    mm (stacked X A) Wf p q
      = mm X (blocks Wf 0) p q + mm (pow1 X A) (blocks Wf 1) p q
        + mm (pow2 X A) (blocks Wf 2) p q + mm (pow3 X A) (blocks Wf 3) p q := by
  simp only [mm]
  rw [sum_four_blocks 256 (fun r : Fin 1024 => stacked X A p r * Wf r q)]
  refine congrArg₂ (· + ·) (congrArg₂ (· + ·) (congrArg₂ (· + ·) ?_ ?_) ?_) ?_
  · refine Finset.sum_congr rfl fun j _ => ?_
    rw [stacked_block0 X A p j _ rfl,
      blocks_apply Wf 0 j q _ (by show j.val = 256 * 0 + j.val; omega)]
  · refine Finset.sum_congr rfl fun j _ => ?_
    rw [stacked_block1 X A p j _ rfl,
      blocks_apply Wf 1 j q _ (by show 256 + j.val = 256 * 1 + j.val; omega)]
  · refine Finset.sum_congr rfl fun j _ => ?_
    rw [stacked_block2 X A p j _ rfl,
      blocks_apply Wf 2 j q _ (by show 256 + 256 + j.val = 256 * 2 + j.val; omega)]
  · refine Finset.sum_congr rfl fun j _ => ?_
    rw [stacked_block3 X A p j _ rfl,
      blocks_apply Wf 3 j q _ (by show 256 + 256 + 256 + j.val = 256 * 3 + j.val; omega)]

end Stacked

/-! ### (2) Real matrices inside the extended reals -/

/-- A real matrix seen entrywise in the extended reals. -/
def coeM {ι κ : Type} (P : Matrix ι κ ℝ) : ι → κ → EReal := fun p k => ((P p k : ℝ) : EReal)

/-- A finite sum of reals, seen in the extended reals, is the sum of the images. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The product of two real matrices, computed in the extended reals, is the real product. -/
theorem mm_coeM {ι κ μ : Type} [Fintype κ] (P : Matrix ι κ ℝ) (Q : Matrix κ μ ℝ) :
    mm (coeM P) (coeM Q) = coeM (P * Q) := by
  funext p q
  simp only [mm, coeM, Matrix.mul_apply, coe_sum, EReal.coe_mul]

/-- The sum of two real matrices, computed in the extended reals, is the real sum. -/
theorem add_coeM {ι κ : Type} (P Q : Matrix ι κ ℝ) (p : ι) (q : κ) :
    coeM P p q + coeM Q p q = coeM (P + Q) p q := by
  simp only [coeM, Matrix.add_apply, EReal.coe_add]

/-- The four 256 × 256 blocks of a real 1024 × 256 matrix. -/
def blocksR (Wf : Matrix (Fin 1024) (Fin 256) ℝ) (s : Fin 4) : Matrix (Fin 256) (Fin 256) ℝ :=
  fun j q => Wf ⟨256 * s.val + j.val, by have := s.isLt; have := j.isLt; omega⟩ q

theorem blocks_coeM (Wf : Matrix (Fin 1024) (Fin 256) ℝ) (s : Fin 4) :
    blocks (coeM Wf) s = coeM (blocksR Wf s) := rfl

section Real

variable (X : Matrix (Fin 10000) (Fin 256) ℝ) (A : Matrix (Fin 10000) (Fin 10000) ℝ)

section Kernel

variable (W : Fin 4 → Fin 256 → Fin 256 → EReal) (WR : Fin 4 → Matrix (Fin 256) (Fin 256) ℝ)
  (hW : ∀ s, W s = coeM (WR s))

include hW

theorem hop1_coeM : hop1 (coeM X) (coeM A) W = coeM (A * X * WR 3 + X * WR 2) := by
  funext p q
  simp only [hop1]
  rw [hW 3, hW 2, mm_coeM, mm_coeM, mm_coeM, add_coeM]

theorem hop2_coeM :
    hop2 (coeM X) (coeM A) W = coeM (A * (A * X * WR 3 + X * WR 2) + X * WR 1) := by
  funext p q
  simp only [hop2]
  rw [hop1_coeM X A W WR hW, hW 1, mm_coeM, mm_coeM, add_coeM]

theorem kernelOut_coeM (b : Fin 256 → ℝ) (p : Fin 10000) (q : Fin 256) :
    kernelOut (coeM X) (coeM A) W (fun q => ((b q : ℝ) : EReal)) p q
      = (((A * (A * (A * X * WR 3 + X * WR 2) + X * WR 1) + X * WR 0) p q + b q : ℝ) : EReal) := by
  simp only [kernelOut]
  rw [hop2_coeM X A W WR hW, hW 0, mm_coeM, mm_coeM, add_coeM]
  simp only [coeM, EReal.coe_add]

end Kernel

theorem referenceOut_coeM (Wf : Matrix (Fin 1024) (Fin 256) ℝ) (b : Fin 256 → ℝ)
    (p : Fin 10000) (q : Fin 256) :
    referenceOut (coeM X) (coeM A) (coeM Wf) (fun q => ((b q : ℝ) : EReal)) p q
      = (((X * blocksR Wf 0 + A * X * blocksR Wf 1 + A * (A * X) * blocksR Wf 2
            + A * (A * (A * X)) * blocksR Wf 3) p q + b q : ℝ) : EReal) := by
  have h1 : pow1 (coeM X) (coeM A) = coeM (A * X) := mm_coeM A X
  have h2 : pow2 (coeM X) (coeM A) = coeM (A * (A * X)) := by
    unfold pow2; rw [h1, mm_coeM]
  have h3 : pow3 (coeM X) (coeM A) = coeM (A * (A * (A * X))) := by
    unfold pow3; rw [h2, mm_coeM]
  simp only [referenceOut]
  rw [mm_stacked, h1, h2, h3, blocks_coeM, blocks_coeM, blocks_coeM, blocks_coeM,
    mm_coeM, mm_coeM, mm_coeM, mm_coeM, add_coeM, add_coeM, add_coeM]
  simp only [coeM, EReal.coe_add]

end Real

/-! ### (3) The identity over the reals -/

/-- Horner form equals the expanded form: the matrix product distributes over + and is
associative. -/
theorem horner_real {m n : Type} [Fintype m] [Fintype n] (A : Matrix m m ℝ) (X : Matrix m n ℝ)
    (W0 W1 W2 W3 : Matrix n n ℝ) :
    A * (A * (A * X * W3 + X * W2) + X * W1) + X * W0
      = X * W0 + A * X * W1 + A * (A * X) * W2 + A * (A * (A * X)) * W3 := by
  simp only [Matrix.mul_add, Matrix.mul_assoc]
  abel

/-- The two forms agree on the images of real matrices. -/
theorem kernelOut_eq_referenceOut_coeM (X : Matrix (Fin 10000) (Fin 256) ℝ)
    (A : Matrix (Fin 10000) (Fin 10000) ℝ) (Wf : Matrix (Fin 1024) (Fin 256) ℝ) (b : Fin 256 → ℝ) :
    kernelOut (coeM X) (coeM A) (blocks (coeM Wf)) (fun q => ((b q : ℝ) : EReal))
      = referenceOut (coeM X) (coeM A) (coeM Wf) (fun q => ((b q : ℝ) : EReal)) := by
  funext p q
  rw [kernelOut_coeM X A (blocks (coeM Wf)) (blocksR Wf) (blocks_coeM Wf) b p q,
    referenceOut_coeM X A Wf b p q, horner_real]

/-- On real entries the Horner form (the kernel) and the stacked form (the reference) agree. -/
theorem kernelOut_eq_referenceOut
    (X : Fin 10000 → Fin 256 → EReal) (A : Fin 10000 → Fin 10000 → EReal)
    (Wf : Fin 1024 → Fin 256 → EReal) (b : Fin 256 → EReal)
    (hX : ∀ p j, ∃ r : ℝ, X p j = (r : EReal)) (hA : ∀ p k, ∃ r : ℝ, A p k = (r : EReal))
    (hW : ∀ r q, ∃ x : ℝ, Wf r q = (x : EReal)) (hb : ∀ q, ∃ r : ℝ, b q = (r : EReal)) :
    kernelOut X A (blocks Wf) b = referenceOut X A Wf b := by
  choose X' hX' using hX
  choose A' hA' using hA
  choose W' hW' using hW
  choose b' hb' using hb
  have eX : X = coeM X' := funext fun p => funext fun j => hX' p j
  have eA : A = coeM A' := funext fun p => funext fun k => hA' p k
  have eW : Wf = coeM W' := funext fun r => funext fun q => hW' r q
  have eb : b = fun q => ((b' q : ℝ) : EReal) := funext hb'
  rw [eX, eA, eW, eb]
  exact kernelOut_eq_referenceOut_coeM X' A' W' b'

end Cert.Spec

end
-- ==== Proof.FiniteInputs.lean ====
/-
  From the precondition to "every input entry is a real number".

  The precondition computes, for each of the four inputs, the conjunction over all entries of
  |x| < +∞, and then the conjunction of the four.  In the extended reals |x| = max x (−x), and the
  word 0x7F800000 denotes ⊤; max x (−x) < ⊤ excludes x = ⊤ and x = ⊥, so x is a real number.
-/
import proofs.«118664_g34883724378360_cont_8to1_b_1789_21_alg».proof.Pre_finite_inputs
import Idealize.ShloMosaic.PureOps.Ideal
import Idealize.ShloMosaic.Lib.ReduceAll
import Idealize.ShloMosaic.Lib.ValueIdx

namespace Cert.Finite

open Idealize.ShloMosaic

/-- The single-precision word 0x7F800000 denotes +∞. -/
theorem ofBits_inf : Ideal.ofBits .f32 0x7F800000#32 = (⊤ : EReal) := by
  simp [Ideal.ofBits, Ideal.ieee]

/-- If |x| = max x (−x) compares below +∞ then x is a real number. -/
theorem real_of_abs_lt_top (x : EReal) (h : Ideal.cmp .olt (max x (-x)) ⊤ = 1#1) :
    ∃ r : ℝ, x = (r : EReal) := by
  have hlt : max x (-x) < ⊤ := by
    by_contra hn
    simp [Ideal.cmp, hn] at h
  induction x using EReal.rec
  · simp at hlt
  · exact ⟨_, rfl⟩
  · simp at hlt

/-- An all-axes conjunction of the comparisons |x i| < c i, with c constantly +∞, that comes out
true makes every x i a real number. -/
theorem all_real {s t u : Shape} {axes : List (Fin s.rank)} [Subsingleton t.Idx]
    (x c : FVec Ideal s .f32) (hc : ∀ i, c i = (⊤ : EReal)) (init : IVec u 1)
    (h : s.ReducesTo axes t) (hu : 0 < u.numel) (j : t.Idx)
    (e : Host.reduce IntOp.andi (cmpf .olt (Host.absf x) c) init h hu j = 1#1) (i : s.Idx) :
    ∃ r : ℝ, x i = (r : EReal) := by
  have h1 := Host.reduce_andi_all _ init h hu j e i
  apply real_of_abs_lt_top
  rw [← hc i]
  exact h1

instance : Subsingleton Cert.Pre_finite_inputs.S_.Idx := ⟨fun a b => funext fun d => d.elim0⟩

open Cert.Pre_finite_inputs in
/-- The precondition holds only if every entry of every input is a real number. -/
theorem of_pre [Cert.Pre_finite_inputs.Facts]
    (x0 : FVec Ideal S10000x256 .f32) (x1 : FVec Ideal S10000x10000 .f32)
    (x2 : FVec Ideal S1024x256 .f32) (x3 : FVec Ideal S256 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨e0, e1⟩, e2⟩, e3⟩ := h0
  exact ⟨all_real x0 _ (fun _ => ofBits_inf) _ _ _ _ e0, all_real x1 _ (fun _ => ofBits_inf) _ _ _ _ e1,
    all_real x2 _ (fun _ => ofBits_inf) _ _ _ _ e2, all_real x3 _ (fun _ => ofBits_inf) _ _ _ _ e3⟩

end Cert.Finite
-- ==== Proof.Bridge.lean ====
/-
  From the run and the two regions' values to the claim at the ideal instance.

  The kernel program's result array ends holding, at (p, q), the Horner form
  ((A·hop2 + X·W₀) + b)(p, q) of the four argument arrays, W_s the s-th 256 × 256 block of rows of the
  weight matrix: the last region leaves the third sweep of what it is handed, which is what the host
  operations and the first region left — X and the weight blocks (a change of float format is the
  identity, a regrouping keeps the row-major position), the adjacency matrix, and the first sweep.
  The reference's result array ends holding the stacked form.  On finite inputs the two agree.
-/
import proofs.«118664_g34883724378360_cont_8to1_b_1789_21_alg».proof.Defs
import proofs.«118664_g34883724378360_cont_8to1_b_1789_21_alg».proof.Proof.Run
import proofs.«118664_g34883724378360_cont_8to1_b_1789_21_alg».proof.Proof.Value0
import proofs.«118664_g34883724378360_cont_8to1_b_1789_21_alg».proof.Proof.Value1
import proofs.«118664_g34883724378360_cont_8to1_b_1789_21_alg».proof.Proof.HostValues
import proofs.«118664_g34883724378360_cont_8to1_b_1789_21_alg».proof.Proof.RefIsSpec
import proofs.«118664_g34883724378360_cont_8to1_b_1789_21_alg».proof.Proof.HornerLaw
import proofs.«118664_g34883724378360_cont_8to1_b_1789_21_alg».proof.Proof.FiniteInputs
import proofs.«118664_g34883724378360_cont_8to1_b_1789_21_alg».proof.Proof.Gen.KernelIdeal
import proofs.«118664_g34883724378360_cont_8to1_b_1789_21_alg».proof.Proof.Gen.ReferenceIdeal
import proofs.«118664_g34883724378360_cont_8to1_b_1789_21_alg».proof.Proof.Gen.Pre_finite_inputs
import proofs.«118664_g34883724378360_cont_8to1_b_1789_21_alg».proof.Proof.Gen.ReferenceIdeal.Run
import proofs.«118664_g34883724378360_cont_8to1_b_1789_21_alg».proof.Proof.Gen.ReferenceIdeal.Read

noncomputable section

namespace Cert.KernelIdeal.Hand

open Cert.KernelIdeal Cert.KernelIdeal.Gen
open Idealize.ShloMosaic Idealize.ShloMosaic.TcCoe Idealize.SL.Sem

section KernelValue

variable (m : (ℓ : Loc nD τ sig) → Buf (Elt Ideal) ℓ) (ρ : Dev nD → PrngReg) (c : Dev nD)

/-- The four argument arrays of core c as functions of their coordinates. -/
abbrev argX : Fin 10000 → Fin 256 → EReal := fun p j => (m ((c.tc : Thread nD τ).loc main_arg0) : S10000x256.Idx → EReal) (ValueIdx.ix2 p j)
abbrev argA : Fin 10000 → Fin 10000 → EReal := fun p k => (m ((c.tc : Thread nD τ).loc main_arg1) : S10000x10000.Idx → EReal) (ValueIdx.ix2 p k)
abbrev argW : Fin 1024 → Fin 256 → EReal := fun r q => (m ((c.tc : Thread nD τ).loc main_arg2) : S1024x256.Idx → EReal) (ValueIdx.ix2 r q)
abbrev argB : Fin 256 → EReal := fun q => (m ((c.tc : Thread nD τ).loc main_arg3) : S256.Idx → EReal) (ValueIdx.ix1 q)

/-- X as the first region finds it (narrowed to bf16) is the argument X. -/
theorem entry_X : (fun (p : Fin 10000) (j : Fin 256) => (V1 m ρ c main_v0 : S10000x256.Idx → EReal) (ValueIdx.ix2 p j)) = argX m c :=
  funext fun p => funext fun j => host_v0 (W0 m ρ c) p j

/-- The adjacency matrix as the first region finds it is the argument A. -/
theorem entry_A : (fun (p : Fin 10000) (k : Fin 10000) => (V1 m ρ c main_arg1 : S10000x10000.Idx → EReal) (ValueIdx.ix2 p k)) = argA m c :=
  funext fun p => funext fun k => congrFun (host_arg1 (W0 m ρ c)) (ValueIdx.ix2 p k)

/-- The weight blocks as the first region finds them are the blocks of rows of the argument W. -/
theorem entry_W : (fun (s : Fin 4) (j : Fin 256) (q : Fin 256) => (V1 m ρ c main_v2 : S4x256x256.Idx → EReal) (ValueIdx.ix3 s j q))
    = Cert.Spec.blocks (argW m c) :=
  funext fun s => funext fun j => funext fun q => host_v2 (W0 m ρ c) s j q

/-- The one-row bias as the host operations leave it is the argument b. -/
theorem entry_b : (fun (q : Fin 256) => (V1 m ρ c main_v3 : S1x256.Idx → EReal) (ValueIdx.ix2 (0 : Fin 1) q)) = argB m c :=
  funext fun q => host_v3 (W0 m ρ c) q

/-! What the second region finds: the first region changes only its two result arrays. -/

theorem mid_X : (fun (p : Fin 10000) (j : Fin 256) => (V2 m ρ c main_v0 : S10000x256.Idx → EReal) (ValueIdx.ix2 p j)) = argX m c :=
  (funext fun p => funext fun j => congrFun (W2_main_v0 m ρ c) (ValueIdx.ix2 p j)).trans (entry_X m ρ c)

theorem mid_W : (fun (s : Fin 4) (j : Fin 256) (q : Fin 256) => (V2 m ρ c main_v2 : S4x256x256.Idx → EReal) (ValueIdx.ix3 s j q))
    = Cert.Spec.blocks (argW m c) :=
  (funext fun s => funext fun j => funext fun q => congrFun (W2_main_v2 m ρ c) (ValueIdx.ix3 s j q)).trans (entry_W m ρ c)

theorem mid_b : (fun (q : Fin 256) => (V2 m ρ c main_v3 : S1x256.Idx → EReal) (ValueIdx.ix2 (0 : Fin 1) q)) = argB m c :=
  (funext fun q => congrFun (W2_main_v3 m ρ c) (ValueIdx.ix2 (0 : Fin 1) q)).trans (entry_b m ρ c)

/-- The adjacency matrix narrowed to bf16 by the first region is the argument A. -/
theorem mid_A : (fun (p : Fin 10000) (k : Fin 10000) => (V2 m ρ c main_v4_1 : S10000x10000.Idx → EReal) (ValueIdx.ix2 p k)) = argA m c :=
  (funext fun p => funext fun k => (congrFun (W2_arr m ρ c 4) (ValueIdx.ix2 p k)).trans (arr0_4 (V1 m ρ) c p k)).trans (entry_A m ρ c)

/-- The first region's other result is the first sweep of the arguments. -/
theorem mid_hop1 : (fun (l : Fin 10000) (q : Fin 256) => (V2 m ρ c main_v4_0 : S10000x256.Idx → EReal) (ValueIdx.ix2 l q))
    = Cert.Spec.hop1 (argX m c) (argA m c) (Cert.Spec.blocks (argW m c)) := by
  funext l q
  refine ((congrFun (W2_arr m ρ c 3) (ValueIdx.ix2 l q)).trans (arr0_3 (V1 m ρ) c l q)).trans ?_
  rw [entry_X, entry_A, entry_W]

/-- The kernel program's result array, read at (p, q), is the Horner form of the four arguments. -/
theorem kernel_value (p : Fin 10000) (q : Fin 256) :
    (W3 (F := Ideal) m ρ c (Proc.devRef .tc main_v5) : S10000x256.Idx → EReal) (ValueIdx.ix2 p q)
      = Cert.Spec.kernelOut (argX m c) (argA m c) (Cert.Spec.blocks (argW m c)) (argB m c) p q := by
  refine ((congrFun (W3_arr m ρ c 5) (ValueIdx.ix2 p q)).trans (arr1_5 (V2 m ρ) c p q)).trans ?_
  rw [show Xm (V2 m ρ) c = argX m c from mid_X m ρ c, show Am (V2 m ρ) c = argA m c from mid_A m ρ c,
    show Wm (V2 m ρ) c = Cert.Spec.blocks (argW m c) from mid_W m ρ c, show bm (V2 m ρ) c = argB m c from mid_b m ρ c,
    show U1m (V2 m ρ) c = Cert.Spec.hop1 (argX m c) (argA m c) (Cert.Spec.blocks (argW m c)) from mid_hop1 m ρ c,
    ← Cert.Spec.kernelOut_eq_sweep3]

end KernelValue

/-! ### The claim at the ideal instance -/

/-- From memories agreeing on the arguments, all finite, both programs run, their result arrays end equal
    (the Horner form and the stacked form of real matrices agree), and the arguments end unchanged. -/
theorem algebraic : Cert.algebraic_KernelIdeal_ReferenceIdeal := by
  intro m ρ m' ρ' hpre hagree
  refine ⟨fun c => W3 (F := Ideal) m ρ c (Proc.devRef .tc main_v5), ?_, ?_⟩
  · exact (θ_run _ _ _).mono (fun r h c =>
      ⟨h c _ (mem_uc main_v5 (by decide)),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c)⟩) (run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v7_eq]
    funext i
    obtain ⟨p, q, rfl⟩ : ∃ (p : Fin 10000) (q : Fin 256), i = ValueIdx.ix2 p q := ⟨i 0, i 1, ValueIdx.eq_ix2 i⟩
    rw [Cert.RefSide.reference_is_spec, (hagree c).1, (hagree c).2.1, (hagree c).2.2.1, (hagree c).2.2.2]
    obtain ⟨f0, f1, f2, f3⟩ := Cert.Finite.of_pre _ _ _ _ (hpre c)
    refine (congrFun (congrFun (Cert.Spec.kernelOut_eq_referenceOut (argX m c) (argA m c) (argW m c) (argB m c)
      (fun p j => f0 (ValueIdx.ix2 p j)) (fun p k => f1 (ValueIdx.ix2 p k)) (fun r q => f2 (ValueIdx.ix2 r q))
      (fun q => f3 (ValueIdx.ix1 q))) p) q).symm.trans ?_
    exact (kernel_value m ρ c p q).symm

end Cert.KernelIdeal.Hand

end
-- ==== Proof.KRegion0.lean ====
/-
  The first sweep's pipeline, one grid point per panel of 400 rows (25 points), at any float instance.

  At point i the body is handed five staging buffers: the panel of rows [400·i, 400·i + 400) of the
  adjacency matrix (f32), the whole feature matrix X (bf16), the whole weight tensor (bf16, four
  256 × 256 slabs), and two output buffers.  It leaves in the second output the panel narrowed to bf16,
  and in the first output the panel of the first hop,

      narrow( narrow(panel · X) · W₃ + X[400·i …, :] · W₂ ),

  a function of the three input blocks and of the point (through the rows of X it reads).

  This module states what each window's buffer holds after the body as a function of the input blocks
  (`out0_3`, `out0_4`), the proof data of the pipeline over the arrays as the region finds them, that
  each input buffer holds its block at every point whether or not it was fetched there (an input
  fetched only at the first point keeps its block: its block index never moves), the body's triple,
  and the body obligation of the pipeline rule.
-/
import proofs.«118664_g34883724378360_cont_8to1_b_1789_21_alg».proof.Proof.Gen.Kernel.Launch
import proofs.«118664_g34883724378360_cont_8to1_b_1789_21_alg».proof.Proof.Gen.Kernel.Skeleton
import proofs.«118664_g34883724378360_cont_8to1_b_1789_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is the region's (`hA`) and whose body leaves the block in place (`hafter`):
    where it is not fetched its block index has not moved.  Window 0: the adjacency panel. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the feature matrix, whole, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the weight tensor, whole, fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole adjacency panel (and the whole of the bf16 panel the body writes). -/
abbrev rA0 : Rect S400x10000 := Rect.unit (s := S400x10000) ![0, 0] S400x10000.size inb_S400x10000_S400x10000_0_0
/-- The whole feature matrix. -/
abbrev rX0 : Rect S10000x256 := Rect.unit (s := S10000x256) ![0, 0] S10000x256.size inb_S10000x256_S10000x256_0_0
/-- Rows [400·i, 400·i + 400) of the feature matrix, at grid point `i`. -/
abbrev rXrow0 (i : grid0.Coords) : Rect S10000x256 := Rect.unit (s := S10000x256) (k0_off1 i) S400x256.size (k0_off1_inb i)
/-- The weight slabs 3 and 2. -/
abbrev rW0_3 : Rect S4x256x256 := Rect.unit (s := S4x256x256) ![3, 0, 0] S1x256x256.size inb_S4x256x256_S1x256x256_3_0_0
abbrev rW0_2 : Rect S4x256x256 := Rect.unit (s := S4x256x256) ![2, 0, 0] S1x256x256.size inb_S4x256x256_S1x256x256_2_0_0
/-- The whole first-hop panel. -/
abbrev rU0 : Rect S400x256 := Rect.unit (s := S400x256) ![0, 0] S400x256.size inb_S400x256_S400x256_0_0

/-! ## What the body leaves in each output window's buffer -/

/-- Window 4's buffer after the body, from the adjacency panel: the panel narrowed to bf16, its one store
    (which covers the buffer) as a list of pieces. -/
def out0_4 (x0 : Vec F S400x10000 .f32) : Vec F S400x10000 .bf16 :=
  View.canon [⟨rA0, k0_pay1 (View.ld x0 rA0)⟩]

/-- Window 3's buffer after the body at grid point `i`, from the three input blocks: the first-hop panel,
    narrow(narrow(panel · X) · W₃ + X[400·i …, :] · W₂), its one store as a list of pieces. -/
def out0_3 (i : grid0.Coords) (x0 : Vec F S400x10000 .f32) (x1 : Vec F S10000x256 .bf16) (x2 : Vec F S4x256x256 .bf16) : Vec F S400x256 .bf16 :=
  View.canon [⟨rU0, k0_pay2 (View.ld x0 rA0) (View.ld x1 rX0) (View.ld x1 (rXrow0 i)) (View.ld x2 rW0_3) (View.ld x2 rW0_2)⟩]

/-- The one store of window 4 covers its buffer. -/
theorem cover0_4 (p0 : Vec F S400x10000 .bf16) (y : S400x10000.Idx) :
    ∃ pc ∈ ([⟨rA0, p0⟩] : List (View.Piece (Elt F) S400x10000 .bf16)), y ∈ pc.1.set :=
  View.cover_of_tiled [⟨rA0, p0⟩] S400x10000.size (by rfl) y

/-- The one store of window 3 covers its buffer. -/
theorem cover0_3 (p0 : Vec F S400x256 .bf16) (y : S400x256.Idx) :
    ∃ pc ∈ ([⟨rU0, p0⟩] : List (View.Piece (Elt F) S400x256 .bf16)), y ∈ pc.1.set :=
  View.cover_of_tiled [⟨rU0, p0⟩] S400x256.size (by rfl) y

/-! ## The pipeline's proof data -/

/-- The proof data of the first sweep on core `c`: the arrays as the region finds them; after the body at point
    `t` each input's buffer at its block, the first-hop output at `out0_3` of the three input blocks at the
    point's coordinates, the bf16 panel at `out0_4` of the adjacency panel; the invariant the rest of the
    core's memory, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The body on whole staging memrefs, the three inputs' at read contents and the two outputs' at anything, runs to
    the continuation holding the inputs' as they were, the first-hop output's at `out0_3` of the inputs and the bf16
    panel's at `out0_4` of the adjacency panel. -/
theorem sound_kernel0 (c : Dev nD) (E : Set ℕ) (i : grid0.Coords)
    (arg1 : Memref sig .tc .vmem S400x10000 .f32) (harg1 : arg1.IsWhole)
    (arg2 : Memref sig .tc .vmem S10000x256 .bf16) (harg2 : arg2.IsWhole)
    (arg3 : Memref sig .tc .vmem S4x256x256 .bf16) (harg3 : arg3.IsWhole)
    (arg4 : Memref sig .tc .vmem S400x256 .bf16) (harg4 : arg4.IsWhole)
    (arg5 : Memref sig .tc .vmem S400x10000 .bf16) (harg5 : arg5.IsWhole)
    (x0 : Vec F S400x10000 .f32) (x1 : Vec F S10000x256 .bf16) (x2 : Vec F S4x256x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 i x0 x1 x2) ∗ owns (c : Thread nD τ) arg5 fullShare (out0_4 x0)) -∗ K ⟨⟩))
      ⊢ wp frame (wpE (defs₀ (F := F)) Variants.none c none) E (cc0__sweep1_body i arg1 harg1 arg2 harg2 arg3 harg3 arg4 harg4 arg5 harg5) K := by
  simp only [cc0__sweep1_body_eq_skeleton]; unfold cc0__sweep1_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_4 _)

/-! ## The body obligation, at a generic point -/

/-- What the body is called with at point `t`: the invariant, the core's dues, and each window's current buffer,
    the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three inputs' buffers hold their blocks, so the body's triple applies at the point's
    coordinates; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
/-
  The second sweep's kernel body, run once for each of the two cases its grid meets.

  In the first phase (grid coordinate 0 equal to 0) the body stores, into rows [400·i, 400·i + 400) of the
  scratch it keeps between grid points, the block  A_i · U₁ + X_i · W₁  and leaves the output window alone;
  in the second phase (coordinate 0 equal to 1) it reads the whole scratch and stores  A_i · scratch + X_i · W₀ + b
  into the output window, leaving the scratch alone.  Each run hands back every input buffer as it was and
  names what it stored as a list of pieces.
-/
import proofs.«118664_g34883724378360_cont_8to1_b_1789_21_alg».proof.Proof.Gen.Kernel.Launch
import proofs.«118664_g34883724378360_cont_8to1_b_1789_21_alg».proof.Proof.Gen.Kernel.Skeleton
import proofs.«118664_g34883724378360_cont_8to1_b_1789_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first phase: grid coordinate 0 is 0. -/
abbrev cond1_0 (i : grid1.Coords) : Prop := k1_cond1 i = 1#1
/-- The second phase: grid coordinate 0 is 1. -/
abbrev cond1_1 (i : grid1.Coords) : Prop := k1_cond2 i = 1#1

/-- The grid is walked phase by phase: the first 25 points are the first phase. -/
theorem hcond1_0 : ∀ t : Fin cfg1.N, cond1_0 (grid1.coords t) ↔ t.val < 25 :=
  (by decide +kernel : ∀ t : Fin grid1.N, cond1_0 (grid1.coords t) ↔ t.val < 25)
/-- The last 25 points are the second phase. -/
theorem hcond1_1 : ∀ t : Fin cfg1.N, cond1_1 (grid1.coords t) ↔ 25 ≤ t.val :=
  (by decide +kernel : ∀ t : Fin grid1.N, cond1_1 (grid1.coords t) ↔ 25 ≤ t.val)

/-! ## The body in the first phase -/

set_option maxHeartbeats 4000000 in
/-- First phase: the inputs come back as they were, the output window's buffer untouched, and the scratch with the
    pieces `LS` written over what it held. -/
noncomputable def kernelRun1_A (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : cond1_0 i) (hc1 : ¬cond1_1 i)
    (x0 : Vec F S400x10000 .bf16) (x1 : Vec F S10000x256 .bf16) (x2 : Vec F S10000x256 .bf16) (x3 : Vec F S4x256x256 .bf16) (x4 : Vec F S1x256 .f32) :
    { LS : List (View.Piece (Elt F) S10000x256 .bf16) //
      ∀ (x5 : Vec F S400x256 .f32) (xs : Vec F S10000x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread xs) LS)) -∗ K ⟨⟩))
          ⊢ wp frame (wpE (defs₀ (F := F)) Variants.none c none) E (cc1__sweep23_body i arg2 harg2 arg3 harg3 arg4 harg4 arg5 harg5 arg6 harg6 arg7 harg7 arg8 harg8) K } := by
  refine ⟨?_, fun x5 xs E K => ?run⟩
  case run =>
    simp only [cc1__sweep23_body_eq_skeleton]; unfold cc1__sweep23_body_skel
    unfold owns
    iintro ⟨⟨%f0, %hf0, H_arg2⟩, ⟨%f1, %hf1, H_arg3⟩, ⟨%f2, %hf2, H_arg4⟩, ⟨%f3, %hf3, H_arg5⟩, ⟨%f4, %hf4, H_arg6⟩, ⟨%f5, %hf5, H_arg7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    isplitl [H_arg7]
    · iexists _; isplitr; · ipureintro; exact harg7.read_unread _
      iexact H_arg7
    iexact HS

/-! ## The body in the second phase -/

set_option maxHeartbeats 4000000 in
/-- Second phase: the inputs and the scratch come back as they were, and the output window's buffer with the pieces
    `L5` written (over whatever it held). -/
noncomputable def kernelRun1_B (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : ¬cond1_0 i) (hc1 : cond1_1 i)
    (x0 : Vec F S400x10000 .bf16) (x1 : Vec F S10000x256 .bf16) (x2 : Vec F S10000x256 .bf16) (x3 : Vec F S4x256x256 .bf16) (x4 : Vec F S1x256 .f32) (xs : Vec F S10000x256 .bf16) :
    { L5 : List (View.Piece (Elt F) S400x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc1__sweep23_body i arg2 harg2 arg3 harg3 arg4 harg4 arg5 harg5 arg6 harg6 arg7 harg7 arg8 harg8) K } := by
  refine ⟨?_, fun E K => ?run⟩
  case run =>
    simp only [cc1__sweep23_body_eq_skeleton]; unfold cc1__sweep23_body_skel
    unfold owns
    iintro ⟨⟨%f0, %hf0, H_arg2⟩, ⟨%f1, %hf1, H_arg3⟩, ⟨%f2, %hf2, H_arg4⟩, ⟨%f3, %hf3, H_arg5⟩, ⟨%f4, %hf4, H_arg6⟩, ⟨%d5, %f5, -, H_arg7⟩, ⟨%fs, %hfs, H_arg8⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    isplitl [H_arg7]; · iexists _; iexact H_arg7
    iexists _; isplitr; · ipureintro; exact harg8.read_unread _
    iexact H_arg8

end Cert.Kernel.Hand

end
-- ==== Proof.KRegion1.lean ====
/-
  The second sweep's pipeline: 50 grid points walked phase by phase, the first 25 the first phase (point t is
  panel t), the last 25 the second (point t is panel t − 25), at any float instance.

  The body keeps a scratch of the shape of the feature matrix between grid points.  In the first phase point
  t stores rows [400·t, 400·t + 400) of the second hop,

      narrow( A_t · U₁ + X_t · W₁ ),

  into the scratch and leaves the output window alone; in the second phase point t reads the whole scratch,
  by then the whole second hop, and stores  (A_i · hop₂ + X_i · W₀) + b  for panel i = t − 25 into the output
  window, leaving the scratch alone.

  What the scratch holds is stated by a predicate rather than by a closed term: before point t its rows below
  400 · min t 25 are the second hop's (`ScrInv`).  The first phase extends the predicate by one panel; after 25
  points it says the scratch IS the second hop, which is what the second phase's stored value is stated over.

  This module states the windows' blocks, the second hop as a function of the input blocks (`hop2fun`), what the
  output window holds after the body in the second phase (`out1_5`), the pipeline's proof data with that
  invariant, the invariant's entry and exit, and the body obligation of the pipeline rule.
-/
import proofs.«118664_g34883724378360_cont_8to1_b_1789_21_alg».proof.Proof.KRegion1Runs
import Idealize.ShloMosaic.Lib.ValueIdx
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the region's (`hA`) and whose body leaves the block in place (`hafter`): where it is not
    fetched its block index has not moved.  Window 0: the bf16 adjacency panel, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1: the first hop, whole, fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2: the feature matrix, whole, fetched at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3: the weight tensor, whole, fetched at the first point only. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4: the bias row, whole, fetched at the first point only. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers and the scratch, as the pipeline passes them to the body -/

abbrev ms1_0 (t : Fin cfg1.N) : Memref sig .tc .vmem S400x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S400x256 .f32 := win1_5.stage (cfg1.slots t 5)
abbrev hs1_5 (t : Fin cfg1.N) : (ms1_5 t).IsWhole := hstage1_5 ((cfg1.slots t 5).cast nbuf1_5)
/-- The scratch the body keeps between grid points: a whole buffer of the kernel's own. -/
abbrev scM1 : Memref sig .tc .vmem S10000x256 .bf16 := Memref.whole cc1_scratch0

/-! ## The body's accesses -/

/-- The whole bf16 adjacency panel. -/
abbrev rA1 : Rect S400x10000 := Rect.unit (s := S400x10000) ![0, 0] S400x10000.size inb_S400x10000_S400x10000_0_0
/-- A whole 10000 × 256 matrix (the first hop; the scratch). -/
abbrev rM1 : Rect S10000x256 := Rect.unit (s := S10000x256) ![0, 0] S10000x256.size inb_S10000x256_S10000x256_0_0
/-- The panel's rows of the feature matrix, at grid point `i`. -/
abbrev rXrow1 (i : grid1.Coords) : Rect S10000x256 := Rect.unit (s := S10000x256) (k1_off1 i) S400x256.size (k1_off1_inb i)
/-- The weight slabs 1 and 0. -/
abbrev rW1_1 : Rect S4x256x256 := Rect.unit (s := S4x256x256) ![1, 0, 0] S1x256x256.size inb_S4x256x256_S1x256x256_1_0_0
abbrev rW1_0 : Rect S4x256x256 := Rect.unit (s := S4x256x256) ![0, 0, 0] S1x256x256.size inb_S4x256x256_S1x256x256_0_0_0
/-- The whole bias row. -/
abbrev rB1 : Rect S1x256 := Rect.unit (s := S1x256) ![0, 0] S1x256.size inb_S1x256_S1x256_0_0
/-- The whole output panel. -/
abbrev rO1 : Rect S400x256 := Rect.unit (s := S400x256) ![0, 0] S400x256.size inb_S400x256_S400x256_0_0

/-! ## The second hop, panel by panel -/

/-- What the first phase stores at point `t`: the panel  narrow(A_t · U₁ + X_t · W₁)  of the second hop, from the
    input blocks at the point. -/
def payA (c : Dev nD) (t : Fin cfg1.N) : Vec F S400x256 .bf16 :=
  k1_pay2 (View.ld (iblk1 V c 2 t) (rXrow1 (grid1.coords t))) (View.ld (iblk1 V c 0 t) rA1)
    (View.ld (iblk1 V c 1 t) rM1) (View.ld (iblk1 V c 3 t) rW1_1)

/-- Row r of the 10000-row matrix lies in panel r / 400, one of the first phase's 25. -/
theorem panel_lt (y : S10000x256.Idx) : (y 0).val / 400 < cfg1.N := by
  have h := ValueIdx.idx2_lt0 y
  have hN : cfg1.N = 50 := N_1
  rw [hN]; omega

/-- Row r is row r % 400 of its panel; the column is the column. -/
def localIdx (y : S10000x256.Idx) : S400x256.Idx :=
  ValueIdx.ix2 (⟨(y 0).val % 400, Nat.mod_lt _ (by decide)⟩ : Fin 400) (⟨(y 1).val, ValueIdx.idx2_lt1 y⟩ : Fin 256)

/-- The whole second hop: row r is row r % 400 of what the first phase stores at point r / 400. -/
def hop2fun (c : Dev nD) : Vec F S10000x256 .bf16 := fun y =>
  payA V c ⟨(y 0).val / 400, panel_lt y⟩ (localIdx y)

/-- What is known of the scratch before point `n` of the first phase: its first `n` panels are the second hop's. -/
def ScrInv (c : Dev nD) (n : ℕ) (f : Vec F S10000x256 .bf16) : Prop :=
  ∀ y : S10000x256.Idx, (y 0).val < 400 * n → f y = hop2fun V c y

/-! ## What the body leaves in the output window's buffer, in the second phase -/

/-- Window 5's buffer after the body at a point `t` of the second phase, from the input blocks and the second
    hop: the panel  (A_i · hop₂ + X_i · W₀) + b, its one store as a list of pieces. -/
def out1_5 (c : Dev nD) (t : Fin cfg1.N) : Vec F S400x256 .f32 :=
  View.canon [⟨rO1, k1_pay3 (View.ld (iblk1 V c 2 t) (rXrow1 (grid1.coords t))) (View.ld (iblk1 V c 0 t) rA1)
    (View.ld (hop2fun V c) rM1) (View.ld (iblk1 V c 3 t) rW1_0) (View.ld (iblk1 V c 4 t) rB1)⟩]

/-- The one store of window 5 covers its buffer. -/
theorem cover1_5 (p0 : Vec F S400x256 .f32) (y : S400x256.Idx) :
    ∃ pc ∈ ([⟨rO1, p0⟩] : List (View.Piece (Elt F) S400x256 .f32)), y ∈ pc.1.set :=
  View.cover_of_tiled [⟨rO1, p0⟩] S400x256.size (by rfl) y

/-! ## The pipeline's proof data -/

/-- The invariant before point `n`: the other pipeline's staging buffers, each at some contents; the scratch at
    contents whose first `min n 25` panels are the second hop's; the random-number register at some state. -/
def Phi1 (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Vec F S10000x256 .bf16, owns (c : Thread nD τ) scM1 fullShare f ∗ ⌜ScrInv V c (min n 25) f⌝))
    ∗ ∃ r, prngReg c r)

/-- The proof data of the second sweep on core `c`: the arrays as the region finds them; after the body at point
    `t` each input's buffer at its block and the output's at `out1_5`; the invariant `Phi1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

/-- The invariant at the proof data's points. -/
theorem Phi1_at (c : Dev nD) (t : Fin (cfg1.N + 1)) : (dat1 V c).Φ t = Phi1 V c t.val := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the windows are idle, and where the first phase stores -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- In the first phase the body stores nothing into the output window, -/
theorem idleAt1_5_A : ∀ t : Fin cfg1.N, t.val < 25 → cfg1.idle 5 (grid1.coords t) = true :=
  (by decide +kernel : ∀ t : Fin grid1.N, t.val < 25 → idle1 5 (grid1.coords t) = true)
/-- and the pipeline does not write its block back. -/
theorem noFlush1_5_A : ∀ t : Fin cfg1.N, t.val < 25 → (cfg1.win 5).flush t = false :=
  (by decide +kernel : ∀ t : Fin grid1.N, t.val < 25 → win1_5.flush t = false)
/-- In the second phase the body stores into it. -/
theorem liveAt1_5_B : ∀ t : Fin cfg1.N, 25 ≤ t.val → cfg1.idle 5 (grid1.coords t) = false :=
  (by decide +kernel : ∀ t : Fin grid1.N, 25 ≤ t.val → idle1 5 (grid1.coords t) = false)
/-- At point `t` of the first phase the store into the scratch starts at row 400·t, column 0. -/
theorem off2_at : ∀ t : Fin cfg1.N, t.val < 25 → k1_off2 (grid1.coords t) = ![400 * t.val, 0] :=
  (by decide +kernel : ∀ t : Fin grid1.N, t.val < 25 → k1_off2 (grid1.coords t) = ![400 * t.val, 0])

/-! ## The invariant's entry and exit -/

/-- Entering the region: the scratch is a whole buffer at some contents, of which nothing is claimed yet. -/
theorem hin1 (c : Dev nD) : (Pipeline.ΦA spec1 c : sProp 𝕄) ⊢ (dat1 V c).Φ 0 := by
  rw [Phi1_at]
  unfold Pipeline.ΦA Phi1
  rw [scopedRest1_eq]
  simp only [scM1, owns_whole]
  iintro ⟨⟨A1, A2, A3, A4, A5, A6, A7, A8, ⟨%f, HS⟩⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexists f
  isplitl [HS]
  · iexact HS
  · ipureintro
    intro y hy
    exfalso
    rw [Fin.val_zero, Nat.zero_min, Nat.mul_zero] at hy
    exact Nat.not_lt_zero _ hy

/-- Leaving the region: what is known of the scratch is forgotten. -/
theorem hout1 (c : Dev nD) : (dat1 V c).Φ (Fin.last cfg1.N) ⊢ (Pipeline.ΦA spec1 c : sProp 𝕄) := by
  rw [Phi1_at]
  unfold Pipeline.ΦA Phi1
  rw [scopedRest1_eq]
  simp only [scM1, owns_whole]
  iintro ⟨⟨A1, A2, A3, A4, A5, A6, A7, A8, ⟨%f, HS, -⟩⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexists f
  iexact HS

/-! ## What each phase's run stores, over the blocks read -/

/-- The first phase stores one piece: rows [400·i₁, 400·i₁ + 400) of the scratch, the second hop's panel. -/
theorem piecesA_eq (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : cond1_0 i) (hc1 : ¬cond1_1 i) (x0 : Vec F S400x10000 .bf16) (x1 : Vec F S10000x256 .bf16) (x2 : Vec F S10000x256 .bf16) (x3 : Vec F S4x256x256 .bf16) (x4 : Vec F S1x256 .f32) :
    (kernelRun1_A c i arg2 harg2 arg3 harg3 arg4 harg4 arg5 harg5 arg6 harg6 arg7 harg7 arg8 harg8 hc0 hc1 x0 x1 x2 x3 x4).1
      = [⟨Rect.unit (s := S10000x256) (k1_off2 i) S400x256.size (k1_off2_inb i hc0),
          k1_pay2 (View.ld x2 (rXrow1 i)) (View.ld x0 rA1) (View.ld x1 rM1) (View.ld x3 rW1_1)⟩] := by
  unfold kernelRun1_A
  dsimp only
  simp only [View.readAt_eq_ld, harg2.read_unread, harg3.read_unread, harg4.read_unread, harg5.read_unread]

/-- The second phase stores one piece: the whole output panel, over the whole scratch as read. -/
theorem piecesB_eq (c : Dev nD) (i : grid1.Coords) (arg2 : Memref sig .tc .vmem S400x10000 .bf16) (harg2 : arg2.IsWhole) (arg3 : Memref sig .tc .vmem S10000x256 .bf16) (harg3 : arg3.IsWhole) (arg4 : Memref sig .tc .vmem S10000x256 .bf16) (harg4 : arg4.IsWhole) (arg5 : Memref sig .tc .vmem S4x256x256 .bf16) (harg5 : arg5.IsWhole) (arg6 : Memref sig .tc .vmem S1x256 .f32) (harg6 : arg6.IsWhole) (arg7 : Memref sig .tc .vmem S400x256 .f32) (harg7 : arg7.IsWhole) (arg8 : Memref sig .tc .vmem S10000x256 .bf16) (harg8 : arg8.IsWhole) (hc0 : ¬cond1_0 i) (hc1 : cond1_1 i) (x0 : Vec F S400x10000 .bf16) (x1 : Vec F S10000x256 .bf16) (x2 : Vec F S10000x256 .bf16) (x3 : Vec F S4x256x256 .bf16) (x4 : Vec F S1x256 .f32) (xs : Vec F S10000x256 .bf16) :
    (kernelRun1_B c i arg2 harg2 arg3 harg3 arg4 harg4 arg5 harg5 arg6 harg6 arg7 harg7 arg8 harg8 hc0 hc1 x0 x1 x2 x3 x4 xs).1
      = [⟨rO1, k1_pay3 (View.ld x2 (rXrow1 i)) (View.ld x0 rA1) (View.ld xs rM1) (View.ld x3 rW1_0) (View.ld x4 rB1)⟩] := by
  unfold kernelRun1_B
  dsimp only
  simp only [View.readAt_eq_ld, harg2.read_unread, harg4.read_unread, harg5.read_unread, harg6.read_unread, harg8.read_unread]

/-! ## The scratch, one panel further -/

/-- After the first phase's store at point `t` the scratch's first `t + 1` panels are the second hop's: a row of
    panel `t` reads the stored panel at its local position, which is the second hop there since the row's panel
    number is `t`; a row of an earlier panel reads what the scratch held, of which the same was known. -/
theorem scrInv_step (c : Dev nD) (t : Fin cfg1.N) (h : t.val < 25) (f : Vec F S10000x256 .bf16) (hf : ScrInv V c t.val f)
    (inb : ∀ a : Fin 2, (k1_off2 (grid1.coords t)) a + S400x256.size a ≤ S10000x256.size a) :
    ScrInv V c (t.val + 1) (scM1.view.read (Elt F) (scM1.view.writes (Elt F) ((Memref.isWhole_whole cc1_scratch0).unread f)
      [⟨Rect.unit (s := S10000x256) (k1_off2 (grid1.coords t)) S400x256.size inb, payA V c t⟩])) := by
  intro y hy
  have hy0 := ValueIdx.idx2_lt0 y
  by_cases hlo : 400 * t.val ≤ (y 0).val
  · have hx0 : (y (0 : Fin 2)).val = 400 * t.val + ((localIdx y) (0 : Fin 2)).val := by
      show (y 0).val = 400 * t.val + (y 0).val % 400
      omega
    have hx1 : (y (1 : Fin 2)).val = ((localIdx y) (1 : Fin 2)).val := rfl
    refine (View.read_writes_cons_rows_of_mem scM1.view _ inb (payA V c t) [] y (localIdx y) (off2_at t h) hx0 hx1).trans ?_
    have ht : (⟨(y 0).val / 400, panel_lt y⟩ : Fin cfg1.N) = t := Fin.ext (by show (y 0).val / 400 = t.val; omega)
    unfold hop2fun
    rw [ht]
  · refine (View.read_writes_cons_rows_of_not_mem scM1.view _ inb (payA V c t) [] y (off2_at t h) rfl (Or.inl (by omega))).trans ?_
    rw [View.writes_nil, Memref.IsWhole.read_unread]
    exact hf y (by omega)

/-- Once all 25 panels are stored the scratch is the second hop. -/
theorem scrInv_full (c : Dev nD) (f : Vec F S10000x256 .bf16) (hf : ScrInv V c 25 f) : f = hop2fun V c :=
  funext fun y => hf y (by have := ValueIdx.idx2_lt0 y; omega)

/-! ## The body obligation, at a generic point -/

/-- What the body is called with at point `t`: the invariant, the core's dues, and each window's current buffer,
    the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns: each window's buffer at what the body leaves there, an idle output's as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 3200000 in
/-- The body at any point.  The five inputs' buffers hold their blocks.  In the first phase (t < 25) the output window
    is idle and handed back as found; the scratch comes back with panel t stored over contents whose first t panels
    were the second hop's, so its first t + 1 are.  In the second phase (25 ≤ t) the scratch is the second hop and
    comes back unchanged; the output window's one store covers it, so it holds `out1_5`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_at, Phi1_at, Fin.val_succ, Fin.coe_castSucc]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  unfold Phi1
  by_cases h : t.val < 25
  · rw [Dat.leavesExact_idle (dat1 V c) 5 t (idleAt1_5_A t h) (noFlush1_5_A t h)]
    rw [show min t.val 25 = t.val from Nat.min_eq_left (Nat.le_of_lt h), show min (t.val + 1) 25 = t.val + 1 from Nat.min_eq_left h]
    iintro ⟨⟨⟨A1, A2, A3, A4, A5, A6, A7, A8, ⟨%f, HS, %hf⟩⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      ((hcond1_0 t).mpr h) (fun h' => by have := (hcond1_1 t).mp h'; omega) (iblk1 V c 0 t) (iblk1 V c 1 t) (iblk1 V c 2 t) (iblk1 V c 3 t) (iblk1 V c 4 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [A1 A2 A3 A4 A5 A6 A7 A8 HS Hg]
    · isplitr [Hg]
      swap; · iexact Hg
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexists _
      isplitl [HS]
      · unfold owns; iexists _; isplitr
        swap; · iexact HS
        ipureintro; rfl
      · ipureintro
        rw [piecesA_eq]
        exact scrInv_step V c t h f hf _
    isplitl [Ho]; · iexact Ho
    isplitl [H0]; · iexact H0
    isplitl [H1]; · iexact H1
    isplitl [H2]; · iexact H2
    isplitl [H3]; · iexact H3
    isplitl [H4]; · iexact H4
    iexists _; iexact H5
  · have h' : 25 ≤ t.val := Nat.le_of_not_lt h
    rw [show (dat1 V c).leavesExact 5 t = owns (c : Thread nD τ) (ms1_5 t) fullShare ((dat1 V c).after 5 t) from by
      unfold Dat.leavesExact; rw [liveAt1_5_B t h'], after1_5]
    rw [show min t.val 25 = 25 from Nat.min_eq_right h', show min (t.val + 1) 25 = 25 from Nat.min_eq_right (Nat.le_succ_of_le h')]
    iintro ⟨⟨⟨A1, A2, A3, A4, A5, A6, A7, A8, ⟨%f, HS, %hf⟩⟩, Hg⟩, Ho, ⟨%d0, H0⟩, ⟨%d1, H1⟩, ⟨%d2, H2⟩, ⟨%d3, H3⟩, ⟨%d4, H4⟩, ⟨%d5, H5⟩⟩
    obtain rfl := scrInv_full V c f hf
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      (fun h0 => by have := (hcond1_0 t).mp h0; omega) ((hcond1_1 t).mpr h') (iblk1 V c 0 t) (iblk1 V c 1 t) (iblk1 V c 2 t) (iblk1 V c 3 t) (iblk1 V c 4 t) (hop2fun V c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%g, H5⟩, HS⟩
    isplitl [A1 A2 A3 A4 A5 A6 A7 A8 HS Hg]
    · isplitr [Hg]
      swap; · iexact Hg
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexists (hop2fun V c)
      isplitl [HS]
      · iexact HS
      · ipureintro; exact hf
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    rw [piecesB_eq]
    exact View.read_writes_eq_canon _ _ _ (cover1_5 _)

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the whole program, at any float instance.

  On every core the program is three stretches in a row: four host operations (X narrowed to bf16, the
  weight matrix cut into four 256 × 256 slabs and narrowed, the bias read as a 1 × 256 row), then the
  first sweep (25 grid points: the adjacency matrix narrowed panel by panel and the first hop), then the
  second sweep (2 × 25 grid points: the second hop, then the output).  Nothing runs between the sweeps
  and nothing after the second.

  The contents of a core's unscoped buffers at the four boundaries are a fold from the launch memory:

      B₀  the launch memory,
      B₁  B₀ after the four host operations,
      B₂  B₁ with the first sweep's five arrays at what its write-backs leave,
      B₃  B₂ with the second sweep's six arrays at what its write-backs leave.

  This module names the fold, reads single buffers back through it (an argument is never written, so it
  ends as launched; the first sweep leaves its inputs and the buffers it does not stage as it found
  them), states each sweep as a segment over the thread state "every unscoped buffer at the boundary's
  contents, the generator register at some state, nothing owed", and launches the three segments: every
  weakly fair execution terminates without fault, and at the end every unscoped buffer of every core
  holds B₃.  The frame claim (the four arguments end as launched) is a corollary.
-/
import proofs.«118664_g34883724378360_cont_8to1_b_1789_21_alg».proof.Proof.KRegion0
import proofs.«118664_g34883724378360_cont_8to1_b_1789_21_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the four host operations: what the first sweep is entered from. -/
abbrev W1 : Dev nD → Valuation τ sig (Elt F) := fun c => StableHlo.after hostOps0 (W0 m ρ c)
/-- The same, read at the TensorCore's references (what the first sweep's proof data take). -/
abbrev V1 : (c : Dev nD) → (b : Ref sig .tc) → Buf (Elt F) ((c : Thread nD τ).loc b) := fun c b => W1 m ρ c b
/-- After the first sweep: its five arrays at what the pipeline leaves (an input as entered, an output with its
    write-backs folded in), every other buffer as entered.  The second sweep is entered from this. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (what the second sweep's proof data take). -/
abbrev V2 : (c : Dev nD) → (b : Ref sig .tc) → Buf (Elt F) ((c : Thread nD τ).loc b) := fun c b => W2 m ρ c b
/-- After the first sweep each of its arrays holds what the pipeline leaves, and every other buffer what it held
    when the sweep was entered. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second sweep, the end of the program: its six arrays at what the pipeline leaves, every other
    buffer as the sweep found it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Single buffers read back through the fold -/

/-- A buffer none of the four host operations writes holds after them what it held at launch. -/
theorem W1_of_not_written (c : Dev nD) (b : Ref sig .tc)
    (h0 : main_v0 ≠ b) (h1 : main_v1 ≠ b) (h2 : main_v2 ≠ b) (h3 : main_v3 ≠ b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    exact ⟨StableHlo.devRef_ne_of_ne (Ne.symm h0), StableHlo.devRef_ne_of_ne (Ne.symm h1),
      StableHlo.devRef_ne_of_ne (Ne.symm h2), StableHlo.devRef_ne_of_ne (Ne.symm h3)⟩))

/-- The first sweep leaves an input array as it found it: the adjacency matrix (window 0), -/
theorem W2_main_arg1 (c : Dev nD) : W2 m ρ c (Proc.devRef .tc main_arg1) = W1 m ρ c (Proc.devRef .tc main_arg1) :=
  (W2_arr m ρ c 0).trans (((dat0 (V1 m ρ) c).arrAt_in 0 rfl _).trans (A_eq0 (V1 m ρ) c 0))
/-- the narrowed feature matrix (window 1), -/
theorem W2_main_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))
/-- the narrowed weight slabs (window 2); -/
theorem W2_main_v2 (c : Dev nD) : W2 m ρ c (Proc.devRef .tc main_v2) = W1 m ρ c (Proc.devRef .tc main_v2) :=
  (W2_arr m ρ c 2).trans (((dat0 (V1 m ρ) c).arrAt_in 2 rfl _).trans (A_eq0 (V1 m ρ) c 2))
/-- and the bias row, which it does not stage, is not touched. -/
theorem W2_main_v3 (c : Dev nD) : W2 m ρ c (Proc.devRef .tc main_v3) = W1 m ρ c (Proc.devRef .tc main_v3) :=
  W2_of_ne m ρ c main_v3 (by decide)

/-- The arguments end as launched: no host operation and neither sweep writes one.  The feature matrix: -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide) (by decide) (by decide) (by decide)
    _ = m ((c : Thread nD τ).loc main_arg0) := rfl
/-- the adjacency matrix (the first sweep reads it through an input window): -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_main_arg1 m ρ c
    _ = W0 m ρ c (Proc.devRef .tc main_arg1) := W1_of_not_written m ρ c main_arg1 (by decide) (by decide) (by decide) (by decide)
    _ = m ((c : Thread nD τ).loc main_arg1) := rfl
/-- the weight matrix: -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide) (by decide) (by decide)
    _ = m ((c : Thread nD τ).loc main_arg2) := rfl
/-- the bias: -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide) (by decide) (by decide) (by decide)
    _ = m ((c : Thread nD τ).loc main_arg3) := rfl

/-! ### The sweeps' outputs, by name -/

/-- After the first sweep the first-hop buffer and the narrowed adjacency matrix hold what the pipeline leaves in
    its windows 3 and 4; -/
theorem W2_main_v4_0 (c : Dev nD) : W2 m ρ c (Proc.devRef .tc main_v4_0) = (dat0 (V1 m ρ) c).arrAt 3 cfg0.N := W2_arr m ρ c 3
theorem W2_main_v4_1 (c : Dev nD) : W2 m ρ c (Proc.devRef .tc main_v4_1) = (dat0 (V1 m ρ) c).arrAt 4 cfg0.N := W2_arr m ρ c 4
/-- after the second sweep the result buffer holds what the pipeline leaves in its window 5. -/
theorem W3_main_v5 (c : Dev nD) : W3 m ρ c (Proc.devRef .tc main_v5) = (dat1 (V2 m ρ) c).arrAt 5 cfg1.N := W3_arr m ρ c 5

/-! ## The proof data family and the thread state -/

/-- Neither pipeline prefetches a table. -/
abbrev adm : (p : Fin 2) → (pcfgs (F := F) p).Adm := fun p => (cfgs p).toPCfg_adm
/-- Both pipelines' proof data, each at the contents its sweep is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A line of host operations as a segment: from every unscoped buffer at the contents `W` to every unscoped
    buffer at the contents after the line, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- None of the four host operations allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the final contents, the generator register
    at some state. -/
abbrev Tₙ (c : Dev nD) : sProp 𝕄 := iprop(StableHlo.held (c : Thread nD τ) (Pipeline.ucRefs τ sig) (W3 m ρ c) ∗ ∃ r, prngReg c r)

/-! ## The sweeps as segments -/

set_option backward.isDefEq.respectTransparency.types false in
/-- The first sweep over the thread state: entered from every unscoped buffer at `W1`, left at `W2`.  Its five
    arrays are split out of the unscoped buffers and put back at what the pipeline leaves; the generator register
    goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second sweep over the thread state: entered from every unscoped buffer at `W2`, left at `W3`, the end
    of the program.  Its six arrays are split out of the unscoped buffers and put back at what the pipeline
    leaves; the generator register and the scoped buffers the sweep does not stage — its carried accumulator
    among them — go into the pipeline's invariant at the first point and come back from it at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m ρ 1 c).Φ 0 from hin1 (V2 m ρ) c)
    unfold Pipeline.ΦA
    isplitl [Hr]; · iexact Hr
    iexact Hp
  hout c := by
    rw [Pipeline.ownSems0_none]
    iintro H
    ihave H' := (show (pdats m ρ 1 c).Φ (Fin.last _) ⊢ (Pipeline.ΦA spec1 c : sProp 𝕄) from hout1 (V2 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the host line from the launch contents, then the two sweeps. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN.  At the compiled mesh, from any memory with every semaphore counter at zero, every weakly fair
    execution of the program on the TensorCores terminates, nothing faulting, and in every final state every
    unscoped buffer of every core holds the last boundary's contents `W3`. -/
theorem run : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of the program terminates, nothing faulting, and the four argument
    arrays end as launched — the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

/-- info: 'Cert.Kernel.Hand.run' depends on axioms: [propext, Classical.choice, Quot.sound] -/
#guard_msgs in #print axioms run
/-- info: 'Cert.Kernel.Hand.frame' depends on axioms: [propext, Classical.choice, Quot.sound] -/
#guard_msgs in #print axioms frame

end Cert.Kernel.Hand

end
-- ==== Proof.lean ====
/-
  The proof of `Cert.Claim`.

  The kernel computes the graph convolution in Horner form: with W_s the s-th 256 × 256 block of rows of
  the 1024 × 256 weight matrix,

      hop1 = (A·X)·W₃ + X·W₂,   hop2 = A·hop1 + X·W₁,   out = (A·hop2 + X·W₀) + b,

  and the reference multiplies the 10000 × 1024 matrix [X | A·X | A²·X | A³·X] by the weight matrix and adds
  b.  Over the extended reals, on finite inputs, the two are equal by distributivity and associativity of
  the matrix product; every program runs to the end and leaves its argument arrays as it found them.
  The pieces: the specification and the law between its two forms, the reference read index by index, the
  host operations and the two regions of the kernel program read index by index, the run of the kernel
  program through its two regions, and the bridge from these to the claim at the ideal instance.
-/
import proofs.«118664_g34883724378360_cont_8to1_b_1789_21_alg».proof.Defs
import proofs.«118664_g34883724378360_cont_8to1_b_1789_21_alg».proof.Proof.Gen.Kernel
import proofs.«118664_g34883724378360_cont_8to1_b_1789_21_alg».proof.Proof.Gen.Kernel.Skeleton
import proofs.«118664_g34883724378360_cont_8to1_b_1789_21_alg».proof.Proof.Gen.Kernel.Launch
import proofs.«118664_g34883724378360_cont_8to1_b_1789_21_alg».proof.Proof.Gen.Kernel.Regions
import proofs.«118664_g34883724378360_cont_8to1_b_1789_21_alg».proof.Proof.Gen.Kernel.Points
import proofs.«118664_g34883724378360_cont_8to1_b_1789_21_alg».proof.Proof.Gen.KernelIdeal
import proofs.«118664_g34883724378360_cont_8to1_b_1789_21_alg».proof.Proof.Gen.KernelIdeal.Skeleton
import proofs.«118664_g34883724378360_cont_8to1_b_1789_21_alg».proof.Proof.Gen.KernelIdeal.Launch
import proofs.«118664_g34883724378360_cont_8to1_b_1789_21_alg».proof.Proof.Gen.KernelIdeal.Regions
import proofs.«118664_g34883724378360_cont_8to1_b_1789_21_alg».proof.Proof.Gen.KernelIdeal.Points
import proofs.«118664_g34883724378360_cont_8to1_b_1789_21_alg».proof.Proof.Gen.ReferenceIdeal
import proofs.«118664_g34883724378360_cont_8to1_b_1789_21_alg».proof.Proof.Gen.Pre_finite_inputs
import proofs.«118664_g34883724378360_cont_8to1_b_1789_21_alg».proof.Proof.Gen.ReferenceIdeal.Run
import proofs.«118664_g34883724378360_cont_8to1_b_1789_21_alg».proof.Proof.Gen.ReferenceIdeal.Read
import proofs.«118664_g34883724378360_cont_8to1_b_1789_21_alg».proof.Proof.Bridge
import proofs.«118664_g34883724378360_cont_8to1_b_1789_21_alg».proof.Proof.KRun
import Idealize.ShloMosaic.Adequacy
import Idealize.ShloMosaic.Init

noncomputable section

namespace Cert.Proof

open Idealize.ShloMosaic Idealize.SL.Sem

/-- The kernel program as printed runs to the end and leaves its arguments unchanged. -/
theorem frame_k : Cert.frame_Kernel := fun m ρ _ => Cert.Kernel.Hand.frame m ρ

/-- The kernel program read over the extended reals runs to the end and leaves its arguments unchanged. -/
theorem frame_ki : Cert.frame_KernelIdeal := fun m ρ _ => Cert.KernelIdeal.Hand.frame m ρ

/-- The reference runs to the end and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for the ideal instance. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.KernelIdeal.Hand.algebraic⟩

end Cert.Proof

end
